-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S3000000 : Shape := ⟨1, ![3000000]⟩
abbrev S60000x64 : Shape := ⟨2, ![60000, 64]⟩
abbrev S40000x64 : Shape := ⟨2, ![40000, 64]⟩
abbrev S64x64 : Shape := ⟨2, ![64, 64]⟩
abbrev S_ : Shape := ⟨0, ![]⟩

class Facts : Prop where
  bcast_S_S3000000 : S_.BroadcastsInDim S3000000 (![] : Fin 0 → Fin S3000000.rank)
  reducesTo_S3000000_S_d0 : S3000000.ReducesTo [0] S_
  h_S_ : 0 < S_.numel
  bcast_S_S60000x64 : S_.BroadcastsInDim S60000x64 (![] : Fin 0 → Fin S60000x64.rank)
  reducesTo_S60000x64_S_d0_1 : S60000x64.ReducesTo [0, 1] S_
  bcast_S_S40000x64 : S_.BroadcastsInDim S40000x64 (![] : Fin 0 → Fin S40000x64.rank)
  reducesTo_S40000x64_S_d0_1 : S40000x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg8 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : IVec S8192 32) (main_arg1 : IVec S8192 32) (main_arg2 : IVec S3000000 32) (main_arg3 : IVec S3000000 32) (main_arg4 : FVec F S3000000 .f32) (main_arg5 : FVec F S60000x64 .f32) (main_arg6 : FVec F S40000x64 .f32) (main_arg7 : FVec F S64x64 .f32) (main_arg8 : FVec F S64x64 .f32) : IVec S_ 1 :=
  let main_v0 : FVec F S3000000 .f32 := Host.absf main_arg4
  let main_cst : FVec F S_ .f32 := constant S_ .f32 0x7F800000#32
  let main_v1 : FVec F S3000000 .f32 := broadcastInDim S3000000 ![] bcast_S_S3000000 main_cst
  let main_v2 : IVec S3000000 1 := cmpf .olt main_v0 main_v1
  let main_c : IVec S_ 1 := constantI S_ 1 1#1
  let main_v3 : IVec S_ 1 := (fun x v => Host.reduce IntOp.andi x v reducesTo_S3000000_S_d0 h_S_) main_v2 main_c
  let main_v4 : FVec F S60000x64 .f32 := Host.absf main_arg5
  let main_cst_0 : FVec F S_ .f32 := constant S_ .f32 0x7F800000#32
  let main_v5 : FVec F S60000x64 .f32 := broadcastInDim S60000x64 ![] bcast_S_S60000x64 main_cst_0
  let main_v6 : IVec S60000x64 1 := cmpf .olt main_v4 main_v5
  let main_c_1 : IVec S_ 1 := constantI S_ 1 1#1
  let main_v7 : IVec S_ 1 := (fun x v => Host.reduce IntOp.andi x v reducesTo_S60000x64_S_d0_1 h_S_) main_v6 main_c_1
  let main_v8 : IVec S_ 1 := andi main_v3 main_v7
  let main_v9 : FVec F S40000x64 .f32 := Host.absf main_arg6
  let main_cst_2 : FVec F S_ .f32 := constant S_ .f32 0x7F800000#32
  let main_v10 : FVec F S40000x64 .f32 := broadcastInDim S40000x64 ![] bcast_S_S40000x64 main_cst_2
  let main_v11 : IVec S40000x64 1 := cmpf .olt main_v9 main_v10
  let main_c_3 : IVec S_ 1 := constantI S_ 1 1#1
  let main_v12 : IVec S_ 1 := (fun x v => Host.reduce IntOp.andi x v reducesTo_S40000x64_S_d0_1 h_S_) main_v11 main_c_3
  let main_v13 : IVec S_ 1 := andi main_v8 main_v12
  let main_v14 : FVec F S64x64 .f32 := Host.absf main_arg7
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg8 main_v13 main_v16
-- ==== Kernel.lean ====
abbrev S8192 : Shape := ⟨1, ![8192]⟩
abbrev S3000000 : Shape := ⟨1, ![3000000]⟩
abbrev S60000x64 : Shape := ⟨2, ![60000, 64]⟩
abbrev S40000x64 : Shape := ⟨2, ![40000, 64]⟩
abbrev S64x64 : Shape := ⟨2, ![64, 64]⟩
abbrev S100000x64 : Shape := ⟨2, ![100000, 64]⟩
abbrev S_ : Shape := ⟨0, ![]⟩
abbrev S3006464 : Shape := ⟨1, ![3006464]⟩
abbrev S3006464x1 : Shape := ⟨2, ![3006464, 1]⟩
abbrev S3006464x64 : Shape := ⟨2, ![3006464, 64]⟩
abbrev S8192x1 : Shape := ⟨2, ![8192, 1]⟩
abbrev S8192x64 : Shape := ⟨2, ![8192, 64]⟩

abbrev nBuf : Space → Nat
  | .hbm => 92
  | .vmem => 23
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S3000000, .i32⟩
  | .hbm, ⟨3, _⟩ => ⟨S3000000, .i32⟩
  | .hbm, ⟨4, _⟩ => ⟨S3000000, .f32⟩
  | .hbm, ⟨5, _⟩ => ⟨S60000x64, .f32⟩
  | .hbm, ⟨6, _⟩ => ⟨S40000x64, .f32⟩
  | .hbm, ⟨7, _⟩ => ⟨S64x64, .f32⟩
  | .hbm, ⟨8, _⟩ => ⟨S64x64, .f32⟩
  | .hbm, ⟨9, _⟩ => ⟨S100000x64, .f32⟩
  | .hbm, ⟨10, _⟩ => ⟨S_, .i32⟩
  | .hbm, ⟨11, _⟩ => ⟨S_, .i32⟩
  | .hbm, ⟨12, _⟩ => ⟨S3006464, .i32⟩
  | .hbm, ⟨13, _⟩ => ⟨S_, .i32⟩
  | .hbm, ⟨14, _⟩ => ⟨S_, .i32⟩
  | .hbm, ⟨15, _⟩ => ⟨S3006464, .i32⟩
  | .hbm, ⟨16, _⟩ => ⟨S_, .f32⟩
  | .hbm, ⟨17, _⟩ => ⟨S_, .f32⟩
  | .hbm, ⟨18, _⟩ => ⟨S3006464, .f32⟩
  | .hbm, ⟨19, _⟩ => ⟨S3006464x1, .f32⟩
  | .hbm, ⟨20, _⟩ => ⟨S_, .i32⟩
  | .hbm, ⟨21, _⟩ => ⟨S3006464, .i32⟩
  | .hbm, ⟨22, _⟩ => ⟨S3006464, .i1⟩
  | .hbm, ⟨23, _⟩ => ⟨S_, .i32⟩
  | .hbm, ⟨24, _⟩ => ⟨S3006464, .i32⟩
  | .hbm, ⟨25, _⟩ => ⟨S3006464, .i32⟩
  | .hbm, ⟨26, _⟩ => ⟨S3006464, .i32⟩
  | .hbm, ⟨27, _⟩ => ⟨S3006464x1, .i32⟩
  | .hbm, ⟨28, _⟩ => ⟨S3006464x64, .f32⟩
  | .hbm, ⟨29, _⟩ => ⟨S3006464x64, .f32⟩
  | .hbm, ⟨30, _⟩ => ⟨S_, .f32⟩
  | .hbm, ⟨31, _⟩ => ⟨S100000x64, .f32⟩
  | .hbm, ⟨32, _⟩ => ⟨S3006464x1, .i32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S3006464, .i32⟩
  | .hbm, ⟨37, _⟩ => ⟨S3006464, .i1⟩
  | .hbm, ⟨38, _⟩ => ⟨S_, .i32⟩
  | .hbm, ⟨39, _⟩ => ⟨S3006464, .i32⟩
  | .hbm, ⟨40, _⟩ => ⟨S3006464, .i32⟩
  | .hbm, ⟨41, _⟩ => ⟨S3006464, .i32⟩
  | .hbm, ⟨42, _⟩ => ⟨S3006464x1, .i32⟩
  | .hbm, ⟨43, _⟩ => ⟨S3006464x64, .f32⟩
  | .hbm, ⟨44, _⟩ => ⟨S3006464x64, .f32⟩
  | .hbm, ⟨45, _⟩ => ⟨S_, .f32⟩
  | .hbm, ⟨46, _⟩ => ⟨S100000x64, .f32⟩
  | .hbm, ⟨47, _⟩ => ⟨S3006464x1, .i32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S3006464, .i32⟩
  | .hbm, ⟨52, _⟩ => ⟨S3006464, .i1⟩
  | .hbm, ⟨53, _⟩ => ⟨S_, .i32⟩
  | .hbm, ⟨54, _⟩ => ⟨S3006464, .i32⟩
  | .hbm, ⟨55, _⟩ => ⟨S3006464, .i32⟩
  | .hbm, ⟨56, _⟩ => ⟨S3006464, .i32⟩
  | .hbm, ⟨57, _⟩ => ⟨S3006464x1, .i32⟩
  | .hbm, ⟨58, _⟩ => ⟨S3006464x64, .f32⟩
  | .hbm, ⟨59, _⟩ => ⟨S3006464x64, .f32⟩
  | .hbm, ⟨60, _⟩ => ⟨S_, .f32⟩
  | .hbm, ⟨61, _⟩ => ⟨S100000x64, .f32⟩
  | .hbm, ⟨62, _⟩ => ⟨S3006464x1, .i32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S60000x64, .f32⟩
  | .hbm, ⟨69, _⟩ => ⟨S40000x64, .f32⟩
  | .hbm, ⟨70, _⟩ => ⟨S_, .i32⟩
  | .hbm, ⟨71, _⟩ => ⟨S8192, .i32⟩
  | .hbm, ⟨72, _⟩ => ⟨S8192, .i1⟩
  | .hbm, ⟨73, _⟩ => ⟨S_, .i32⟩
  | .hbm, ⟨74, _⟩ => ⟨S8192, .i32⟩
  | .hbm, ⟨75, _⟩ => ⟨S8192, .i32⟩
  | .hbm, ⟨76, _⟩ => ⟨S8192, .i32⟩
  | .hbm, ⟨77, _⟩ => ⟨S8192x1, .i32⟩
  | .hbm, ⟨78, _⟩ => ⟨S8192x64, .f32⟩
  | .hbm, ⟨79, _⟩ => ⟨S_, .i32⟩
  | .hbm, ⟨80, _⟩ => ⟨S8192, .i32⟩
  | .hbm, ⟨81, _⟩ => ⟨S8192, .i1⟩
  | .hbm, ⟨82, _⟩ => ⟨S_, .i32⟩
  | .hbm, ⟨83, _⟩ => ⟨S8192, .i32⟩
  | .hbm, ⟨84, _⟩ => ⟨S8192, .i32⟩
  | .hbm, ⟨85, _⟩ => ⟨S8192, .i32⟩
  | .hbm, ⟨86, _⟩ => ⟨S8192x1, .i32⟩
  | .hbm, ⟨87, _⟩ => ⟨S8192x64, .f32⟩
  | .hbm, ⟨88, _⟩ => ⟨S64x64, .f32⟩
  | .hbm, ⟨89, _⟩ => ⟨S64x64, .f32⟩
  | .hbm, ⟨90, _⟩ => ⟨S8192x1, .f32⟩
  | .hbm, ⟨91, _⟩ => ⟨S8192, .f32⟩
  | .local _ .vmem, ⟨0, _⟩ => ⟨S8192x1, .f32⟩
  | .local _ .vmem, ⟨1, _⟩ => ⟨S8192x1, .f32⟩
  | .local _ .vmem, ⟨2, _⟩ => ⟨S8192x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S8192x1, .f32⟩
  | .local _ .vmem, ⟨7, _⟩ => ⟨S8192x1, .f32⟩
  | .local _ .vmem, ⟨8, _⟩ => ⟨S8192x64, .f32⟩
  | .local _ .vmem, ⟨9, _⟩ => ⟨S8192x64, .f32⟩
  | .local _ .vmem, ⟨10, _⟩ => ⟨S8192x64, .f32⟩
  | .local _ .vmem, ⟨11, _⟩ => ⟨S8192x64, .f32⟩
  | .local _ .vmem, ⟨12, _⟩ => ⟨S8192x1, .f32⟩
  | .local _ .vmem, ⟨13, _⟩ => ⟨S8192x1, .f32⟩
  | .local _ .vmem, ⟨14, _⟩ => ⟨S8192x64, .f32⟩
  | .local _ .vmem, ⟨15, _⟩ => ⟨S8192x64, .f32⟩
  | .local _ .vmem, ⟨16, _⟩ => ⟨S8192x64, .f32⟩
  | .local _ .vmem, ⟨17, _⟩ => ⟨S8192x64, .f32⟩
  | .local _ .vmem, ⟨18, _⟩ => ⟨S8192x64, .f32⟩
  | .local _ .vmem, ⟨19, _⟩ => ⟨S8192x64, .f32⟩
  | .local _ .vmem, ⟨20, _⟩ => ⟨S64x64, .f32⟩
  | .local _ .vmem, ⟨21, _⟩ => ⟨S64x64, .f32⟩
  | .local _ .vmem, ⟨22, _⟩ => ⟨S8192x1, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_c_0 : Ref sig .tc := ⟨.hbm, 13, rfl⟩
abbrev main_call1_v0 : Ref sig .tc := ⟨.hbm, 14, rfl⟩
abbrev main_v2 : Ref sig .tc := ⟨.hbm, 15, rfl⟩
abbrev main_cst : Ref sig .tc := ⟨.hbm, 16, rfl⟩
abbrev main_call2_v0 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_v5 : Ref sig .tc := ⟨.hbm, 21, rfl⟩
abbrev main_v6 : Ref sig .tc := ⟨.hbm, 22, rfl⟩
abbrev main_c_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_c_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_13 : Ref sig .tc := ⟨.hbm, 79, rfl⟩
abbrev main_v52 : Ref sig .tc := ⟨.hbm, 80, rfl⟩
abbrev main_v53 : Ref sig .tc := ⟨.hbm, 81, rfl⟩
abbrev main_c_14 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem1_0 : DmaSem sig := 19
abbrev cc3_sem2_0 : DmaSem sig := 20
abbrev cc3_sem3_0 : DmaSem sig := 21
abbrev cc3_sem4_0 : DmaSem sig := 22

abbrev nD : Nat := 1
abbrev τ : Topo := Topo.v7x

variable {F : FTy → Type} [FloatOps F]

abbrev grid0 : Pipeline.Grid := ⟨1, ![367], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![367], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![367], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S8192x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S8192x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8192x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  concatenates_S60000x64_S40000x64_S100000x64_d0 : Shape.Concatenates [S60000x64, S40000x64] S100000x64 0
  pads_S3000000_S3006464_064640 : S3000000.Pads (![0] : Fin 1 → Nat) ![6464] ![0] S3006464
  h_S_ : 0 < S_.numel
  bcast_S3006464_S3006464x1_0 : S3006464.BroadcastsInDim S3006464x1 (![0] : Fin 1 → Fin S3006464x1.rank)
  bcast_S_S3006464 : S_.BroadcastsInDim S3006464 (![] : Fin 0 → Fin S3006464.rank)
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  broadcasts_S8192x1_S8192x64 : S8192x1.Broadcasts S8192x64
  bcast_S_S100000x64 : S_.BroadcastsInDim S100000x64 (![] : Fin 0 → Fin S100000x64.rank)
  slices_S100000x64_S60000x64_0_0 : S100000x64.Slices ![0, 0] S60000x64
  slices_S100000x64_S40000x64_60000_0 : S100000x64.Slices ![60000, 0] S40000x64
  bcast_S_S8192 : S_.BroadcastsInDim S8192 (![] : Fin 0 → Fin S8192.rank)
  bcast_S8192_S8192x1_0 : S8192.BroadcastsInDim S8192x1 (![0] : Fin 1 → Fin S8192x1.rank)
  transposes_S64x64_S64x64_1_0 : S64x64.Transposes [1, 0] S64x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reduces_S8192x64_S8192 : S8192x64.Reduces [1] S8192
  shapeCasts_S8192_S8192x1 : S8192.ShapeCasts S8192x1
  shapeCasts_S8192x1_S8192 : S8192x1.ShapeCasts S8192
  gather_S100000x64_S3006464x1_S3006464x64_1_0_n_n_0_1_164_wf : GatherDims.WF S100000x64 S3006464x1 S3006464x64 [1] [0] [] [0] [] 1 ![1, 64]
  scatter_S100000x64_S3006464x1_S3006464x64_1_0_0_1_wf : ScatterDims.WF S100000x64 S3006464x1 S3006464x64 [1] [0] [0] 1
  gather_S60000x64_S8192x1_S8192x64_1_0_n_n_0_1_164_wf : GatherDims.WF S60000x64 S8192x1 S8192x64 [1] [0] [] [0] [] 1 ![1, 64]
  gather_S40000x64_S8192x1_S8192x64_1_0_n_n_0_1_164_wf : GatherDims.WF S40000x64 S8192x1 S8192x64 [1] [0] [] [0] [] 1 ![1, 64]
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S3006464x1.size a
  hwx0_0 : ∀ i : grid0.Coords, EltTy.bits .f32 = 32 ∨ (Rect.block (s := S3006464x1) S8192x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S3006464x64.size a
  hwx0_1 : ∀ i : grid0.Coords, EltTy.bits .f32 = 32 ∨ (Rect.block (s := S3006464x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S3006464x64.size a
  hwx0_2 : ∀ i : grid0.Coords, EltTy.bits .f32 = 32 ∨ (Rect.block (s := S3006464x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x1.size a ≤ S3006464x1.size a
  hwx1_0 : ∀ i : grid1.Coords, EltTy.bits .f32 = 32 ∨ (Rect.block (s := S3006464x1) S8192x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S3006464x64.size a
  hwx1_1 : ∀ i : grid1.Coords, EltTy.bits .f32 = 32 ∨ (Rect.block (s := S3006464x64) S8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S3006464x64.size a
  hwx1_2 : ∀ i : grid1.Coords, EltTy.bits .f32 = 32 ∨ (Rect.block (s := S3006464x64) S8192x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x1.size a ≤ S3006464x1.size a
  hwx2_0 : ∀ i : grid2.Coords, EltTy.bits .f32 = 32 ∨ (Rect.block (s := S3006464x1) S8192x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S3006464x64.size a
  hwx2_1 : ∀ i : grid2.Coords, EltTy.bits .f32 = 32 ∨ (Rect.block (s := S3006464x64) S8192x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x64.size a ≤ S3006464x64.size a
  hwx2_2 : ∀ i : grid2.Coords, EltTy.bits .f32 = 32 ∨ (Rect.block (s := S3006464x64) S8192x64.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S8192x64.size a ≤ S8192x64.size a
  hwx3_0 : ∀ i : grid3.Coords, EltTy.bits .f32 = 32 ∨ (Rect.block (s := S8192x64) S8192x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x64.size a ≤ S8192x64.size a
  hwx3_1 : ∀ i : grid3.Coords, EltTy.bits .f32 = 32 ∨ (Rect.block (s := S8192x64) S8192x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S8192x1.size a ≤ S8192x1.size a
  hwx3_4 : ∀ i : grid3.Coords, EltTy.bits .f32 = 32 ∨ (Rect.block (s := S8192x1) S8192x1.size (cc3_transform_4 i) (hinb3_4 i)).WholeWords (EltTy.packing .f32)

variable [Facts₀]

def gather_S100000x64_S3006464x1_S3006464x64_1_0_n_n_0_1_164 : GatherDims S100000x64 S3006464x1 S3006464x64 where
  offsetDims := [1]
  collapsedSliceDims := [0]
  operandBatchingDims := []
  startIndicesBatchingDims := []
  startIndexMap := [0]
  indexVectorDim := 1
  sliceSizes := ![1, 64]
  wf := gather_S100000x64_S3006464x1_S3006464x64_1_0_n_n_0_1_164_wf
def scatter_S100000x64_S3006464x1_S3006464x64_1_0_0_1 : ScatterDims S100000x64 S3006464x1 S3006464x64 where
  updateWindowDims := [1]
  insertedWindowDims := [0]
  scatterDimsToOperandDims := [0]
  indexVectorDim := 1
  wf := scatter_S100000x64_S3006464x1_S3006464x64_1_0_0_1_wf
def gather_S60000x64_S8192x1_S8192x64_1_0_n_n_0_1_164 : GatherDims S60000x64 S8192x1 S8192x64 where
  offsetDims := [1]
  collapsedSliceDims := [0]
  operandBatchingDims := []
  startIndicesBatchingDims := []
  startIndexMap := [0]
  indexVectorDim := 1
  sliceSizes := ![1, 64]
  wf := gather_S60000x64_S8192x1_S8192x64_1_0_n_n_0_1_164_wf
def gather_S40000x64_S8192x1_S8192x64_1_0_n_n_0_1_164 : GatherDims S40000x64 S8192x1 S8192x64 where
  offsetDims := [1]
  collapsedSliceDims := [0]
  operandBatchingDims := []
  startIndicesBatchingDims := []
  startIndexMap := [0]
  indexVectorDim := 1
  sliceSizes := ![1, 64]
  wf := gather_S40000x64_S8192x1_S8192x64_1_0_n_n_0_1_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_v4) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S8192x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S8192x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S8192x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S8192x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v51) S8192x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v58) S8192x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S8192x1.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S8192 : Shape := ⟨1, ![8192]⟩
abbrev S3000000 : Shape := ⟨1, ![3000000]⟩
abbrev S60000x64 : Shape := ⟨2, ![60000, 64]⟩
abbrev S40000x64 : Shape := ⟨2, ![40000, 64]⟩
abbrev S64x64 : Shape := ⟨2, ![64, 64]⟩
abbrev S100000x64 : Shape := ⟨2, ![100000, 64]⟩
abbrev S3000000x1 : Shape := ⟨2, ![3000000, 1]⟩
abbrev S_ : Shape := ⟨0, ![]⟩
abbrev S3000000x64 : Shape := ⟨2, ![3000000, 64]⟩
abbrev S8192x1 : Shape := ⟨2, ![8192, 1]⟩
abbrev S8192x64 : Shape := ⟨2, ![8192, 64]⟩

abbrev nBuf : Space → Nat
  | .hbm => 113
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S3000000, .i32⟩
  | .hbm, ⟨3, _⟩ => ⟨S3000000, .i32⟩
  | .hbm, ⟨4, _⟩ => ⟨S3000000, .f32⟩
  | .hbm, ⟨5, _⟩ => ⟨S60000x64, .f32⟩
  | .hbm, ⟨6, _⟩ => ⟨S40000x64, .f32⟩
  | .hbm, ⟨7, _⟩ => ⟨S64x64, .f32⟩
  | .hbm, ⟨8, _⟩ => ⟨S64x64, .f32⟩
  | .hbm, ⟨9, _⟩ => ⟨S100000x64, .f32⟩
  | .hbm, ⟨10, _⟩ => ⟨S3000000x1, .f32⟩
  | .hbm, ⟨11, _⟩ => ⟨S_, .i32⟩
  | .hbm, ⟨12, _⟩ => ⟨S3000000, .i32⟩
  | .hbm, ⟨13, _⟩ => ⟨S3000000, .i1⟩
  | .hbm, ⟨14, _⟩ => ⟨S_, .i32⟩
  | .hbm, ⟨15, _⟩ => ⟨S3000000, .i32⟩
  | .hbm, ⟨16, _⟩ => ⟨S3000000, .i32⟩
  | .hbm, ⟨17, _⟩ => ⟨S3000000, .i32⟩
  | .hbm, ⟨18, _⟩ => ⟨S3000000x1, .i32⟩
  | .hbm, ⟨19, _⟩ => ⟨S3000000x64, .f32⟩
  | .hbm, ⟨20, _⟩ => ⟨S3000000x64, .f32⟩
  | .hbm, ⟨21, _⟩ => ⟨S3000000x64, .f32⟩
  | .hbm, ⟨22, _⟩ => ⟨S_, .f32⟩
  | .hbm, ⟨23, _⟩ => ⟨S100000x64, .f32⟩
  | .hbm, ⟨24, _⟩ => ⟨S3000000x1, .i32⟩
  | .hbm, ⟨25, _⟩ => ⟨S100000x64, .f32⟩
  | .hbm, ⟨26, _⟩ => ⟨S100000x64, .f32⟩
  | .hbm, ⟨27, _⟩ => ⟨S3000000x1, .f32⟩
  | .hbm, ⟨28, _⟩ => ⟨S_, .i32⟩
  | .hbm, ⟨29, _⟩ => ⟨S3000000, .i32⟩
  | .hbm, ⟨30, _⟩ => ⟨S3000000, .i1⟩
  | .hbm, ⟨31, _⟩ => ⟨S_, .i32⟩
  | .hbm, ⟨32, _⟩ => ⟨S3000000, .i32⟩
  | .hbm, ⟨33, _⟩ => ⟨S3000000, .i32⟩
  | .hbm, ⟨34, _⟩ => ⟨S3000000, .i32⟩
  | .hbm, ⟨35, _⟩ => ⟨S3000000x1, .i32⟩
  | .hbm, ⟨36, _⟩ => ⟨S3000000x64, .f32⟩
  | .hbm, ⟨37, _⟩ => ⟨S3000000x64, .f32⟩
  | .hbm, ⟨38, _⟩ => ⟨S3000000x64, .f32⟩
  | .hbm, ⟨39, _⟩ => ⟨S_, .f32⟩
  | .hbm, ⟨40, _⟩ => ⟨S100000x64, .f32⟩
  | .hbm, ⟨41, _⟩ => ⟨S3000000x1, .i32⟩
  | .hbm, ⟨42, _⟩ => ⟨S100000x64, .f32⟩
  | .hbm, ⟨43, _⟩ => ⟨S100000x64, .f32⟩
  | .hbm, ⟨44, _⟩ => ⟨S3000000x1, .f32⟩
  | .hbm, ⟨45, _⟩ => ⟨S_, .i32⟩
  | .hbm, ⟨46, _⟩ => ⟨S3000000, .i32⟩
  | .hbm, ⟨47, _⟩ => ⟨S3000000, .i1⟩
  | .hbm, ⟨48, _⟩ => ⟨S_, .i32⟩
  | .hbm, ⟨49, _⟩ => ⟨S3000000, .i32⟩
  | .hbm, ⟨50, _⟩ => ⟨S3000000, .i32⟩
  | .hbm, ⟨51, _⟩ => ⟨S3000000, .i32⟩
  | .hbm, ⟨52, _⟩ => ⟨S3000000x1, .i32⟩
  | .hbm, ⟨53, _⟩ => ⟨S3000000x64, .f32⟩
  | .hbm, ⟨54, _⟩ => ⟨S3000000x64, .f32⟩
  | .hbm, ⟨55, _⟩ => ⟨S3000000x64, .f32⟩
  | .hbm, ⟨56, _⟩ => ⟨S_, .f32⟩
  | .hbm, ⟨57, _⟩ => ⟨S100000x64, .f32⟩
  | .hbm, ⟨58, _⟩ => ⟨S3000000x1, .i32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S60000x64, .f32⟩
  | .hbm, ⟨65, _⟩ => ⟨S40000x64, .f32⟩
  | .hbm, ⟨66, _⟩ => ⟨S_, .i32⟩
  | .hbm, ⟨67, _⟩ => ⟨S8192, .i32⟩
  | .hbm, ⟨68, _⟩ => ⟨S8192, .i1⟩
  | .hbm, ⟨69, _⟩ => ⟨S_, .i32⟩
  | .hbm, ⟨70, _⟩ => ⟨S8192, .i32⟩
  | .hbm, ⟨71, _⟩ => ⟨S8192, .i32⟩
  | .hbm, ⟨72, _⟩ => ⟨S8192, .i32⟩
  | .hbm, ⟨73, _⟩ => ⟨S8192x1, .i32⟩
  | .hbm, ⟨74, _⟩ => ⟨S8192x64, .f32⟩
  | .hbm, ⟨75, _⟩ => ⟨S64x64, .f32⟩
  | .hbm, ⟨76, _⟩ => ⟨S8192x64, .f32⟩
  | .hbm, ⟨77, _⟩ => ⟨S_, .f32⟩
  | .hbm, ⟨78, _⟩ => ⟨S8192, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S8192x1, .f32⟩
  | .hbm, ⟨83, _⟩ => ⟨S8192x64, .f32⟩
  | .hbm, ⟨84, _⟩ => ⟨S8192x64, .f32⟩
  | .hbm, ⟨85, _⟩ => ⟨S8192x64, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S8192x64, .f32⟩
  | .hbm, ⟨90, _⟩ => ⟨S8192x64, .f32⟩
  | .hbm, ⟨91, _⟩ => ⟨S_, .i32⟩
  | .hbm, ⟨92, _⟩ => ⟨S8192, .i32⟩
  | .hbm, ⟨93, _⟩ => ⟨S8192, .i1⟩
  | .hbm, ⟨94, _⟩ => ⟨S_, .i32⟩
  | .hbm, ⟨95, _⟩ => ⟨S8192, .i32⟩
  | .hbm, ⟨96, _⟩ => ⟨S8192, .i32⟩
  | .hbm, ⟨97, _⟩ => ⟨S8192, .i32⟩
  | .hbm, ⟨98, _⟩ => ⟨S8192x1, .i32⟩
  | .hbm, ⟨99, _⟩ => ⟨S8192x64, .f32⟩
  | .hbm, ⟨100, _⟩ => ⟨S64x64, .f32⟩
  | .hbm, ⟨101, _⟩ => ⟨S8192x64, .f32⟩
  | .hbm, ⟨102, _⟩ => ⟨S8192x64, .f32⟩
  | .hbm, ⟨103, _⟩ => ⟨S8192x64, .f32⟩
  | .hbm, ⟨104, _⟩ => ⟨S_, .f32⟩
  | .hbm, ⟨105, _⟩ => ⟨S8192x64, .f32⟩
  | .hbm, ⟨106, _⟩ => ⟨S8192x64, .f32⟩
  | .hbm, ⟨107, _⟩ => ⟨S_, .f32⟩
  | .hbm, ⟨108, _⟩ => ⟨S8192x64, .f32⟩
  | .hbm, ⟨109, _⟩ => ⟨S8192x64, .f32⟩
  | .hbm, ⟨110, _⟩ => ⟨S8192x64, .f32⟩
  | .hbm, ⟨111, _⟩ => ⟨S_, .f32⟩
  | .hbm, ⟨112, _⟩ => ⟨S8192, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_13 : Ref sig .tc := ⟨.hbm, 91, rfl⟩
abbrev main_v67 : Ref sig .tc := ⟨.hbm, 92, rfl⟩
abbrev main_v68 : Ref sig .tc := ⟨.hbm, 93, rfl⟩
abbrev main_c_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_17 : Ref sig .tc := ⟨.hbm, 111, rfl⟩
abbrev main_v83 : Ref sig .tc := ⟨.hbm, 112, rfl⟩

abbrev nD : Nat := 1
abbrev τ : Topo := Topo.v7x

variable {F : FTy → Type} [FloatOps F]

class Facts₀ : Prop where
  concatenates_S60000x64_S40000x64_S100000x64_d0 : Shape.Concatenates [S60000x64, S40000x64] S100000x64 0
  bcast_S3000000_S3000000x1_0 : S3000000.BroadcastsInDim S3000000x1 (![0] : Fin 1 → Fin S3000000x1.rank)
  bcast_S_S3000000 : S_.BroadcastsInDim S3000000 (![] : Fin 0 → Fin S3000000.rank)
  bcast_S3000000x1_S3000000x64_0_1 : S3000000x1.BroadcastsInDim S3000000x64 (![0, 1] : Fin 2 → Fin S3000000x64.rank)
  bcast_S_S100000x64 : S_.BroadcastsInDim S100000x64 (![] : Fin 0 → Fin S100000x64.rank)
  slices_S100000x64_S60000x64_0_0 : S100000x64.Slices ![0, 0] S60000x64
  slices_S100000x64_S40000x64_60000_0 : S100000x64.Slices ![60000, 0] S40000x64
  bcast_S_S8192 : S_.BroadcastsInDim S8192 (![] : Fin 0 → Fin S8192.rank)
  bcast_S8192_S8192x1_0 : S8192.BroadcastsInDim S8192x1 (![0] : Fin 1 → Fin S8192x1.rank)
  transposes_S64x64_S64x64_1_0 : S64x64.Transposes [1, 0] S64x64
  reducesTo_S8192x64_S8192_d1 : S8192x64.ReducesTo [1] S8192
  h_S_ : 0 < S_.numel
  bcast_S8192x1_S8192x64_0_1 : S8192x1.BroadcastsInDim S8192x64 (![0, 1] : Fin 2 → Fin S8192x64.rank)
  bcast_S_S8192x64 : S_.BroadcastsInDim S8192x64 (![] : Fin 0 → Fin S8192x64.rank)
  gather_S100000x64_S3000000x1_S3000000x64_1_0_n_n_0_1_164_wf : GatherDims.WF S100000x64 S3000000x1 S3000000x64 [1] [0] [] [0] [] 1 ![1, 64]
  scatter_S100000x64_S3000000x1_S3000000x64_1_0_0_1_wf : ScatterDims.WF S100000x64 S3000000x1 S3000000x64 [1] [0] [0] 1
  gather_S60000x64_S8192x1_S8192x64_1_0_n_n_0_1_164_wf : GatherDims.WF S60000x64 S8192x1 S8192x64 [1] [0] [] [0] [] 1 ![1, 64]
  dot_S8192x64_S64x64_S8192x64_1_0_0_1_n_n_wf : DotDims.WF S8192x64 S64x64 S8192x64 [1] [0] [0] [1] [] []
  gather_S40000x64_S8192x1_S8192x64_1_0_n_n_0_1_164_wf : GatherDims.WF S40000x64 S8192x1 S8192x64 [1] [0] [] [0] [] 1 ![1, 64]

variable [Facts₀]

def gather_S100000x64_S3000000x1_S3000000x64_1_0_n_n_0_1_164 : GatherDims S100000x64 S3000000x1 S3000000x64 where
  offsetDims := [1]
  collapsedSliceDims := [0]
  operandBatchingDims := []
  startIndicesBatchingDims := []
  startIndexMap := [0]
  indexVectorDim := 1
  sliceSizes := ![1, 64]
  wf := gather_S100000x64_S3000000x1_S3000000x64_1_0_n_n_0_1_164_wf
def scatter_S100000x64_S3000000x1_S3000000x64_1_0_0_1 : ScatterDims S100000x64 S3000000x1 S3000000x64 where
  updateWindowDims := [1]
  insertedWindowDims := [0]
  scatterDimsToOperandDims := [0]
  indexVectorDim := 1
  wf := scatter_S100000x64_S3000000x1_S3000000x64_1_0_0_1_wf
def gather_S60000x64_S8192x1_S8192x64_1_0_n_n_0_1_164 : GatherDims S60000x64 S8192x1 S8192x64 where
  offsetDims := [1]
  collapsedSliceDims := [0]
  operandBatchingDims := []
  startIndicesBatchingDims := []
  startIndexMap := [0]
  indexVectorDim := 1
  sliceSizes := ![1, 64]
  wf := gather_S60000x64_S8192x1_S8192x64_1_0_n_n_0_1_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def gather_S40000x64_S8192x1_S8192x64_1_0_n_n_0_1_164 : GatherDims S40000x64 S8192x1 S8192x64 where
  offsetDims := [1]
  collapsedSliceDims := [0]
  operandBatchingDims := []
  startIndicesBatchingDims := []
  startIndexMap := [0]
  indexVectorDim := 1
  sliceSizes := ![1, 64]
  wf := gather_S40000x64_S8192x1_S8192x64_1_0_n_n_0_1_164_wf

class Facts : Prop extends Facts₀ where

variable [Facts]
-- ==== Proof.KernelRun.lean ====
/-
  The kernel program's run with its RESULT read: every weakly fair execution of @main terminates without a fault, the
  argument arrays end as launched, and the result buffer ends holding what the last boundary of the run holds there —
  the contents obtained by folding @main's host stretches and the four regions' write-backs over the launch memory.
-/
import proofs.«104805_j50294067036541_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the kernel program, at any float instance: the result buffer ends at the last boundary's contents, the
    arguments as launched. -/
theorem run_result : θ_run defs (onTc (τ := τ) (main (F := F))) ⟨m, fun _ => 0, ρ⟩ (fun r => ∀ c : Dev nD,
      r.2.mem ((c.tc : Thread nD τ).loc main_v62) = W15 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v62 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c)⟩)

end Cert.KernelIdeal.Run

end
-- ==== Proof.Spec.lean ====
/-
  The two programs as compositions of a few named stages.

  Both programs start from the node table x₀ = [emb_user; emb_item] (100000 rows of 64 features) and apply three rounds of
  message passing: a round gathers, for every edge e, the row x[src e] of the current table, scales it by the edge's
  weight val e, and adds the scaled row into row dst e of a zero table (a segment sum). The reference does this over the
  3,000,000 edges as given. The kernel first pads the three edge arrays with 6,464 zero entries (to 367 blocks of 8192
  edges), forms the products block by block in a pipelined region, and scatters all 3,006,464 products. The mean of the
  four tables is then read at the batch's user and item rows, and the last stage — two 64×64 projections, a softmax along
  the features, a logistic, and the sum of the products along the features — is one more region in the kernel and a line
  of host operations in the reference.

  This module only NAMES the stages, in each program's own spelling, so that the other modules can speak of them.
-/
import proofs.«104805_j50294067036541_2_alg».proof.Proof.Gen.KernelIdeal
import proofs.«104805_j50294067036541_2_alg».proof.Proof.Gen.ReferenceIdeal
import Idealize.ShloMosaic.Lib.ValueIdx

noncomputable section

namespace Cert.Proof.Spec

open Idealize.ShloMosaic Idealize.ShloMosaic.ValueIdx

variable {F : FTy → Type} [FloatOps F]

/-! ## The kernel's stages -/
namespace K
open Cert.KernelIdeal Cert.KernelIdeal.Gen

/-- An integer edge array padded with 6,464 zeros. -/
def padI (s : (⟨S3000000, .i32⟩ : BufTy).Contents (Elt F)) : (⟨S3006464, .i32⟩ : BufTy).Contents (Elt F) :=
  pad S3006464 ![0] ![6464] ![0] s (id (constantI S_ 32 0#32)) pads_S3000000_S3006464_064640 h_S_

/-- The edge weights padded with 6,464 zeros. -/
def padF (v : (⟨S3000000, .f32⟩ : BufTy).Contents (Elt F)) : (⟨S3006464, .f32⟩ : BufTy).Contents (Elt F) :=
  pad S3006464 ![0] ![6464] ![0] v (id (constant (F := F) S_ .f32 0x00000000#32)) pads_S3000000_S3006464_064640 h_S_

/-- The padded weights as a column. -/
def valCol (v : (⟨S3006464, .f32⟩ : BufTy).Contents (Elt F)) : (⟨S3006464x1, .f32⟩ : BufTy).Contents (Elt F) :=
  broadcastInDim S3006464x1 ![0] bcast_S3006464_S3006464x1_0 v

/-- The source rows as a column of start indices: a negative index counts from the end of the table. -/
def srcCol (s : (⟨S3006464, .i32⟩ : BufTy).Contents (Elt F)) : (⟨S3006464x1, .i32⟩ : BufTy).Contents (Elt F) :=
  broadcastInDim S3006464x1 ![0] bcast_S3006464_S3006464x1_0
    (select (cmpi .slt s (broadcastInDim S3006464 ![] bcast_S_S3006464 (constantI S_ 32 0#32)))
      (addi s (broadcastInDim S3006464 ![] bcast_S_S3006464 (constantI S_ 32 100000#32))) s)

/-- The rows of the table `x` at the edges' sources. -/
def gath (x : (⟨S100000x64, .f32⟩ : BufTy).Contents (Elt F)) (s : (⟨S3006464, .i32⟩ : BufTy).Contents (Elt F)) :
    (⟨S3006464x64, .f32⟩ : BufTy).Contents (Elt F) :=
  Host.gather gather_S100000x64_S3006464x1_S3006464x64_1_0_n_n_0_1_164 x (srcCol s)

/-- What the scaling region leaves: row e of `g` times the weight of edge e. -/
def scaleRows (v : (⟨S3006464x1, .f32⟩ : BufTy).Contents (Elt F)) (g : (⟨S3006464x64, .f32⟩ : BufTy).Contents (Elt F)) :
    (⟨S3006464x64, .f32⟩ : BufTy).Contents (Elt F) :=
  fun i => FloatOps.mulf (v (ix2 (i 0) (0 : Fin 1))) (g i)

/-- The segment sum of the messages `u` by destination row. -/
def scat (d : (⟨S3006464, .i32⟩ : BufTy).Contents (Elt F)) (u : (⟨S3006464x64, .f32⟩ : BufTy).Contents (Elt F)) :
    (⟨S100000x64, .f32⟩ : BufTy).Contents (Elt F) :=
  Host.scatterAdd scatter_S100000x64_S3006464x1_S3006464x64_1_0_0_1
    (broadcastInDim S100000x64 ![] bcast_S_S100000x64 (constant (F := F) S_ .f32 0x00000000#32))
    (broadcastInDim S3006464x1 ![0] bcast_S3006464_S3006464x1_0 d) u

/-- One round of message passing over the padded edge arrays. -/
def layer (s d : (⟨S3006464, .i32⟩ : BufTy).Contents (Elt F)) (v : (⟨S3006464, .f32⟩ : BufTy).Contents (Elt F))
    (x : (⟨S100000x64, .f32⟩ : BufTy).Contents (Elt F)) : (⟨S100000x64, .f32⟩ : BufTy).Contents (Elt F) :=
  scat d (scaleRows (valCol v) (gath x s))

end K

/-! ## The reference's stages -/
namespace R
open Cert.ReferenceIdeal Cert.ReferenceIdeal.Gen

/-- The source rows as a column of start indices: a negative index counts from the end of the table. -/
def srcCol (s : (⟨S3000000, .i32⟩ : BufTy).Contents (Elt F)) : (⟨S3000000x1, .i32⟩ : BufTy).Contents (Elt F) :=
  broadcastInDim S3000000x1 ![0] bcast_S3000000_S3000000x1_0
    (select (cmpi .slt s (broadcastInDim S3000000 ![] bcast_S_S3000000 (constantI S_ 32 0#32)))
      (addi s (broadcastInDim S3000000 ![] bcast_S_S3000000 (constantI S_ 32 100000#32))) s)

/-- The messages of one round: row src e of the table times the weight of edge e. -/
def msgs (s : (⟨S3000000, .i32⟩ : BufTy).Contents (Elt F)) (v : (⟨S3000000, .f32⟩ : BufTy).Contents (Elt F))
    (x : (⟨S100000x64, .f32⟩ : BufTy).Contents (Elt F)) : (⟨S3000000x64, .f32⟩ : BufTy).Contents (Elt F) :=
  mulf (broadcastInDim S3000000x64 ![0, 1] bcast_S3000000x1_S3000000x64_0_1 (broadcastInDim S3000000x1 ![0] bcast_S3000000_S3000000x1_0 v))
    (Host.gather gather_S100000x64_S3000000x1_S3000000x64_1_0_n_n_0_1_164 x (srcCol s))

/-- One round of message passing over the edge arrays as given. -/
def layer (s d : (⟨S3000000, .i32⟩ : BufTy).Contents (Elt F)) (v : (⟨S3000000, .f32⟩ : BufTy).Contents (Elt F))
    (x : (⟨S100000x64, .f32⟩ : BufTy).Contents (Elt F)) : (⟨S100000x64, .f32⟩ : BufTy).Contents (Elt F) :=
  Host.scatterAdd scatter_S100000x64_S3000000x1_S3000000x64_1_0_0_1
    (broadcastInDim S100000x64 ![] bcast_S_S100000x64 (constant (F := F) S_ .f32 0x00000000#32))
    (broadcastInDim S3000000x1 ![0] bcast_S3000000_S3000000x1_0 d) (msgs s v x)

/-- The last stage on the host: the two projections `P = U·Wu`, `Q = I·Wi`, the softmax of `P` along the features, the
    logistic of `Q`, and the sum of their products along the features. -/
def tail (U I : (⟨S8192x64, .f32⟩ : BufTy).Contents (Elt F)) (Wu Wi : (⟨S64x64, .f32⟩ : BufTy).Contents (Elt F)) :
    (⟨S8192, .f32⟩ : BufTy).Contents (Elt F) :=
  let P := Host.dotGeneral dot_S8192x64_S64x64_S8192x64_1_0_0_1_n_n none U Wu
  let Q := Host.dotGeneral dot_S8192x64_S64x64_S8192x64_1_0_0_1_n_n none I Wi
  let mx := maximumf (broadcastInDim S8192 ![] bcast_S_S8192 (constant (F := F) S_ .f32 0xFF800000#32))
    (Host.reduce FloatOps.maximumf P (constant (F := F) S_ .f32 0xFF800000#32) reducesTo_S8192x64_S8192_d1 h_S_)
  let e := Host.exp (subf P (broadcastInDim S8192x64 ![0, 1] bcast_S8192x1_S8192x64_0_1 (broadcastInDim S8192x1 ![0] bcast_S8192_S8192x1_0 mx)))
  let sm := Host.divf e (broadcastInDim S8192x64 ![0, 1] bcast_S8192x1_S8192x64_0_1 (broadcastInDim S8192x1 ![0] bcast_S8192_S8192x1_0
    (Host.reduceAdd e (constant (F := F) S_ .f32 0x00000000#32) reducesTo_S8192x64_S8192_d1 h_S_)))
  let sg := Host.divf (broadcastInDim S8192x64 ![] bcast_S_S8192x64 (constant (F := F) S_ .f32 0x3F800000#32))
    (addf (broadcastInDim S8192x64 ![] bcast_S_S8192x64 (constant (F := F) S_ .f32 0x3F800000#32)) (Host.exp (Host.negf Q)))
  Host.reduceAdd (mulf sm sg) (constant (F := F) S_ .f32 0x00000000#32) reducesTo_S8192x64_S8192_d1 h_S_

end R

end Cert.Proof.Spec

end
-- ==== Proof.HostA.lean ====
/-
  The kernel program's host operations before its first region, read back.

  From the launch memory the host first joins the two embedding tables into the node table x₀, pads the three edge arrays
  with zeros, views the padded weights as a column, and gathers the rows of x₀ at the padded sources. This module reads
  what each of these buffers holds when the first region is entered, as a function of the argument arrays; the
  arguments the later stages read are still as launched.
-/
import proofs.«104805_j50294067036541_2_alg».proof.Proof.Gen.KernelIdeal.Frame
import proofs.«104805_j50294067036541_2_alg».proof.Proof.Spec
import Idealize.ShloMosaic.Lib.StableHlo.Run

set_option maxRecDepth 16384

noncomputable section

namespace Cert.KernelIdeal.HostA

open Cert.KernelIdeal Cert.KernelIdeal.Gen Cert.Proof
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The node table x₀: the user rows above the item rows. -/
def x0 (c : Dev nD) : (⟨S100000x64, .f32⟩ : BufTy).Contents (Elt F) :=
  concatenate S100000x64 0 [⟨S60000x64, m ((c.tc : Thread nD τ).loc main_arg5)⟩, ⟨S40000x64, m ((c.tc : Thread nD τ).loc main_arg6)⟩] concatenates_S60000x64_S40000x64_S100000x64_d0

/-- The padded sources, destinations and weights. -/
def srcP (c : Dev nD) : (⟨S3006464, .i32⟩ : BufTy).Contents (Elt F) := Spec.K.padI (m ((c.tc : Thread nD τ).loc main_arg2))
def dstP (c : Dev nD) : (⟨S3006464, .i32⟩ : BufTy).Contents (Elt F) := Spec.K.padI (m ((c.tc : Thread nD τ).loc main_arg3))
def valP (c : Dev nD) : (⟨S3006464, .f32⟩ : BufTy).Contents (Elt F) := Spec.K.padF (m ((c.tc : Thread nD τ).loc main_arg4))

theorem W7_v4 (c : Dev nD) : W7 m ρ c (Proc.devRef .tc main_v4) = Spec.K.valCol (valP m c) := by
  dsimp only [W7, W6, W5, W4, W3, W2, W1, W0, hostOps0, hostOps0_1, hostOps0_2, hostOps0_3, hostOps0_4, hostOps0_5, hostOps0_6]
  after_results_simp
  rfl

theorem W7_v11 (c : Dev nD) : W7 m ρ c (Proc.devRef .tc main_v11) = Spec.K.gath (x0 m c) (srcP m c) := by
  dsimp only [W7, W6, W5, W4, W3, W2, W1, W0, hostOps0, hostOps0_1, hostOps0_2, hostOps0_3, hostOps0_4, hostOps0_5, hostOps0_6]
  after_results_simp
  rfl

theorem W7_v0 (c : Dev nD) : W7 m ρ c (Proc.devRef .tc main_v0) = x0 m c := by
  dsimp only [W7, W6, W5, W4, W3, W2, W1, W0, hostOps0, hostOps0_1, hostOps0_2, hostOps0_3, hostOps0_4, hostOps0_5, hostOps0_6]
  after_results_simp
  rfl

theorem W7_v1 (c : Dev nD) : W7 m ρ c (Proc.devRef .tc main_v1) = srcP m c := by
  dsimp only [W7, W6, W5, W4, W3, W2, W1, W0, hostOps0, hostOps0_1, hostOps0_2, hostOps0_3, hostOps0_4, hostOps0_5, hostOps0_6]
  after_results_simp
  rfl

theorem W7_v2 (c : Dev nD) : W7 m ρ c (Proc.devRef .tc main_v2) = dstP m c := by
  dsimp only [W7, W6, W5, W4, W3, W2, W1, W0, hostOps0, hostOps0_1, hostOps0_2, hostOps0_3, hostOps0_4, hostOps0_5, hostOps0_6]
  after_results_simp
  rfl

theorem W7_main_arg0 (c : Dev nD) : W7 m ρ c (Proc.devRef .tc main_arg0) = m ((c.tc : Thread nD τ).loc main_arg0) := by
  dsimp only [W7, W6, W5, W4, W3, W2, W1, W0, hostOps0, hostOps0_1, hostOps0_2, hostOps0_3, hostOps0_4, hostOps0_5, hostOps0_6]
  (after_results_simp) <;> rfl

theorem W7_main_arg1 (c : Dev nD) : W7 m ρ c (Proc.devRef .tc main_arg1) = m ((c.tc : Thread nD τ).loc main_arg1) := by
  dsimp only [W7, W6, W5, W4, W3, W2, W1, W0, hostOps0, hostOps0_1, hostOps0_2, hostOps0_3, hostOps0_4, hostOps0_5, hostOps0_6]
  (after_results_simp) <;> rfl

theorem W7_main_arg7 (c : Dev nD) : W7 m ρ c (Proc.devRef .tc main_arg7) = m ((c.tc : Thread nD τ).loc main_arg7) := by
  dsimp only [W7, W6, W5, W4, W3, W2, W1, W0, hostOps0, hostOps0_1, hostOps0_2, hostOps0_3, hostOps0_4, hostOps0_5, hostOps0_6]
  (after_results_simp) <;> rfl

theorem W7_main_arg8 (c : Dev nD) : W7 m ρ c (Proc.devRef .tc main_arg8) = m ((c.tc : Thread nD τ).loc main_arg8) := by
  dsimp only [W7, W6, W5, W4, W3, W2, W1, W0, hostOps0, hostOps0_1, hostOps0_2, hostOps0_3, hostOps0_4, hostOps0_5, hostOps0_6]
  (after_results_simp) <;> rfl

end Cert.KernelIdeal.HostA

end
-- ==== Proof.HostB.lean ====
/-
  The kernel program's later host stretches, each read back from ARBITRARY buffer contents.

  Between two regions the host scatters the region's products by destination row into a zero table (the round's new
  table), adds it to the running sum of tables, and gathers the new table's rows at the padded sources for the next
  region. After the third region it scatters once more, divides the sum of the four tables by 4, slices the user and
  item halves, gathers the batch's rows and transposes the two weight matrices; after the last region it drops the
  result's unit axis. Each lemma says what one buffer holds after a stretch in terms of what the stretch found.
-/
import proofs.«104805_j50294067036541_2_alg».proof.Proof.Gen.KernelIdeal.Launch
import proofs.«104805_j50294067036541_2_alg».proof.Proof.Spec
import Idealize.ShloMosaic.Lib.StableHlo.Run

set_option maxRecDepth 16384
set_option maxHeartbeats 2000000

noncomputable section

namespace Cert.KernelIdeal.HostB

open Cert.KernelIdeal Cert.KernelIdeal.Gen Cert.Proof
open Idealize.ShloMosaic Idealize.ShloMosaic.TcCoe Idealize.SL.Sem Idealize.ShloMosaic.StableHlo

variable {F : FTy → Type} [FloatOps F]
variable (W : Valuation τ sig (Elt F))

/-- The mean of the four tables: their sum divided by 4. -/
def meanTable (acc : (⟨S100000x64, .f32⟩ : BufTy).Contents (Elt F)) : (⟨S100000x64, .f32⟩ : BufTy).Contents (Elt F) :=
  Host.divf acc (broadcastInDim S100000x64 ![] bcast_S_S100000x64 (constant (F := F) S_ .f32 0x40800000#32))

/-- The batch's user rows of the mean table (its first 60000 rows). -/
def userRows (lo : (⟨S100000x64, .f32⟩ : BufTy).Contents (Elt F)) (u : (⟨S8192, .i32⟩ : BufTy).Contents (Elt F)) :
    (⟨S8192x64, .f32⟩ : BufTy).Contents (Elt F) :=
  Host.gather gather_S60000x64_S8192x1_S8192x64_1_0_n_n_0_1_164 (extractStridedSlice S60000x64 ![0, 0] lo slices_S100000x64_S60000x64_0_0)
    (broadcastInDim S8192x1 ![0] bcast_S8192_S8192x1_0
      (select (cmpi .slt u (broadcastInDim S8192 ![] bcast_S_S8192 (constantI S_ 32 0#32)))
        (addi u (broadcastInDim S8192 ![] bcast_S_S8192 (constantI S_ 32 60000#32))) u))

/-- The batch's item rows of the mean table (its last 40000 rows). -/
def itemRows (lo : (⟨S100000x64, .f32⟩ : BufTy).Contents (Elt F)) (it : (⟨S8192, .i32⟩ : BufTy).Contents (Elt F)) :
    (⟨S8192x64, .f32⟩ : BufTy).Contents (Elt F) :=
  Host.gather gather_S40000x64_S8192x1_S8192x64_1_0_n_n_0_1_164 (extractStridedSlice S40000x64 ![60000, 0] lo slices_S100000x64_S40000x64_60000_0)
    (broadcastInDim S8192x1 ![0] bcast_S8192_S8192x1_0
      (select (cmpi .slt it (broadcastInDim S8192 ![] bcast_S_S8192 (constantI S_ 32 0#32)))
        (addi it (broadcastInDim S8192 ![] bcast_S_S8192 (constantI S_ 32 40000#32))) it))

/-! ## After region 0 -/

theorem h1_v16 : after hostOps1 W (Proc.devRef .tc main_v16)
    = addf (W (Proc.devRef .tc main_v0)) (Spec.K.scat (W (Proc.devRef .tc main_v2)) (W (Proc.devRef .tc main_v12))) := by
  dsimp only [hostOps1]
  (after_results_simp) <;> rfl

theorem h1_v23 : after hostOps1 W (Proc.devRef .tc main_v23)
    = Spec.K.gath (Spec.K.scat (W (Proc.devRef .tc main_v2)) (W (Proc.devRef .tc main_v12))) (W (Proc.devRef .tc main_v1)) := by
  dsimp only [hostOps1]
  (after_results_simp) <;> rfl

theorem h1_main_v4 : after hostOps1 W (Proc.devRef .tc main_v4) = W (Proc.devRef .tc main_v4) := by
  dsimp only [hostOps1]
  (after_results_simp) <;> rfl

theorem h1_main_v1 : after hostOps1 W (Proc.devRef .tc main_v1) = W (Proc.devRef .tc main_v1) := by
  dsimp only [hostOps1]
  (after_results_simp) <;> rfl

theorem h1_main_v2 : after hostOps1 W (Proc.devRef .tc main_v2) = W (Proc.devRef .tc main_v2) := by
  dsimp only [hostOps1]
  (after_results_simp) <;> rfl

theorem h1_main_arg0 : after hostOps1 W (Proc.devRef .tc main_arg0) = W (Proc.devRef .tc main_arg0) := by
  dsimp only [hostOps1]
  (after_results_simp) <;> rfl

theorem h1_main_arg1 : after hostOps1 W (Proc.devRef .tc main_arg1) = W (Proc.devRef .tc main_arg1) := by
  dsimp only [hostOps1]
  (after_results_simp) <;> rfl

theorem h1_main_arg7 : after hostOps1 W (Proc.devRef .tc main_arg7) = W (Proc.devRef .tc main_arg7) := by
  dsimp only [hostOps1]
  (after_results_simp) <;> rfl

theorem h1_main_arg8 : after hostOps1 W (Proc.devRef .tc main_arg8) = W (Proc.devRef .tc main_arg8) := by
  dsimp only [hostOps1]
  (after_results_simp) <;> rfl

/-! ## After region 1 -/

theorem h2_v28 : after hostOps2 W (Proc.devRef .tc main_v28)
    = addf (W (Proc.devRef .tc main_v16)) (Spec.K.scat (W (Proc.devRef .tc main_v2)) (W (Proc.devRef .tc main_v24))) := by
  dsimp only [hostOps2]
  (after_results_simp) <;> rfl

theorem h2_v35 : after hostOps2 W (Proc.devRef .tc main_v35)
    = Spec.K.gath (Spec.K.scat (W (Proc.devRef .tc main_v2)) (W (Proc.devRef .tc main_v24))) (W (Proc.devRef .tc main_v1)) := by
  dsimp only [hostOps2]
  (after_results_simp) <;> rfl

theorem h2_main_v4 : after hostOps2 W (Proc.devRef .tc main_v4) = W (Proc.devRef .tc main_v4) := by
  dsimp only [hostOps2]
  (after_results_simp) <;> rfl

theorem h2_main_v2 : after hostOps2 W (Proc.devRef .tc main_v2) = W (Proc.devRef .tc main_v2) := by
  dsimp only [hostOps2]
  (after_results_simp) <;> rfl

theorem h2_main_arg0 : after hostOps2 W (Proc.devRef .tc main_arg0) = W (Proc.devRef .tc main_arg0) := by
  dsimp only [hostOps2]
  (after_results_simp) <;> rfl

theorem h2_main_arg1 : after hostOps2 W (Proc.devRef .tc main_arg1) = W (Proc.devRef .tc main_arg1) := by
  dsimp only [hostOps2]
  (after_results_simp) <;> rfl

theorem h2_main_arg7 : after hostOps2 W (Proc.devRef .tc main_arg7) = W (Proc.devRef .tc main_arg7) := by
  dsimp only [hostOps2]
  (after_results_simp) <;> rfl

theorem h2_main_arg8 : after hostOps2 W (Proc.devRef .tc main_arg8) = W (Proc.devRef .tc main_arg8) := by
  dsimp only [hostOps2]
  (after_results_simp) <;> rfl

/-! ## After region 2 -/

theorem h3_v51 : after hostOps3 W (Proc.devRef .tc main_v51)
    = userRows (meanTable (addf (W (Proc.devRef .tc main_v28)) (Spec.K.scat (W (Proc.devRef .tc main_v2)) (W (Proc.devRef .tc main_v36)))))
        (W (Proc.devRef .tc main_arg0)) := by
  dsimp only [hostOps3]
  (after_results_simp) <;> rfl

theorem h3_v58 : after hostOps3 W (Proc.devRef .tc main_v58)
    = itemRows (meanTable (addf (W (Proc.devRef .tc main_v28)) (Spec.K.scat (W (Proc.devRef .tc main_v2)) (W (Proc.devRef .tc main_v36)))))
        (W (Proc.devRef .tc main_arg1)) := by
  dsimp only [hostOps3]
  (after_results_simp) <;> rfl

theorem h3_v59 : after hostOps3 W (Proc.devRef .tc main_v59)
    = transpose S64x64 [1, 0] (W (Proc.devRef .tc main_arg7)) transposes_S64x64_S64x64_1_0 := by
  dsimp only [hostOps3]
  (after_results_simp) <;> rfl

theorem h3_v60 : after hostOps3 W (Proc.devRef .tc main_v60)
    = transpose S64x64 [1, 0] (W (Proc.devRef .tc main_arg8)) transposes_S64x64_S64x64_1_0 := by
  dsimp only [hostOps3]
  (after_results_simp) <;> rfl

/-! ## After region 3 -/

theorem h4_v62 : after hostOps4 W (Proc.devRef .tc main_v62)
    = shapeCast S8192 (W (Proc.devRef .tc main_v61)) shapeCasts_S8192x1_S8192 := by
  dsimp only [hostOps4]
  (after_results_simp) <;> rfl

end Cert.KernelIdeal.HostB

end
-- ==== Proof.LibKeepdims.lean ====
/-
  Column vectors read at an index: the three layout steps a row reduction with `keepdims` goes through.

  A row reduction of an `[a, b]` array gives a vector `[a]`; `keepdims` views it as a column `[a, 1]`
  (row-major position `i * 1 + 0 = i`), and using it against the `[a, b]` array again broadcasts that
  column along the rows, every entry of row `p` reading the column's entry `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibKeepdims
-- ==== Proof.Scale0.lean ====
/-
  Scaling region 0 as one whole-array function.

  The region walks 367 blocks of 8192 edges. At block t it reads rows 8192·t … 8192·t + 8191 of the weight column and of
  the gathered rows, multiplies row e of the gathered rows by the weight of e, and writes the 8192 × 64 products back to
  the same rows of its output. The blocks tile the 3,006,464 rows, so after the region the output array holds, at every
  (e, c), the weight of e times the gathered entry (e, c) — whatever the arrays held when the region was entered.
-/
import proofs.«104805_j50294067036541_2_alg».proof.Proof.Gen.KernelIdeal.Frame
import proofs.«104805_j50294067036541_2_alg».proof.Proof.Spec
import proofs.«104805_j50294067036541_2_alg».proof.Proof.LibKeepdims
import Idealize.ShloMosaic.Lib.Pipeline.Value
import Idealize.ShloMosaic.Lib.ValueIdx

set_option maxRecDepth 16384

noncomputable section

namespace Cert.KernelIdeal.Scale0

open Cert.KernelIdeal Cert.KernelIdeal.Gen Cert.Proof
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's product at row p, column q of a block: the block's weight of row p times the block's entry (p, q). -/
theorem pay_apply (x0 : Vec Ideal S8192x1 .f32) (x1 : Vec Ideal S8192x64 .f32) (p : Fin 8192) (q : Fin 64) :
    k0_pay1 (F := Ideal) x0 x1 (ix2 p q) = x0 (ix2 p (0 : Fin 1)) * x1 (ix2 p q) := by
  unfold k0_pay1
  rw [shapeCast_self, shapeCast_self, mulf_apply, Cert.LibKeepdims.broadcastTo_a1_ab_apply]

/-- A weight times an entry is the row-scaled array's entry, when the weight is the entry's row's. -/
theorem scale_blk (A0 : S3006464x1.Idx → EReal) (A1 : S3006464x64.Idx → EReal) (i0 : S3006464x1.Idx) (i1 i2 : S3006464x64.Idx)
    (h0 : i0 = ix2 (i2 0) (0 : Fin 1)) (h1 : i1 = i2) : A0 i0 * A1 i1 = Spec.K.scaleRows (F := Ideal) A0 A1 i2 := by
  subst h0 h1; rfl

/-- The three windows move together: at point t each is at block t along the edges and block 0 along the features. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the row-scaled array. -/
theorem flushed_eq (c : Dev nD) (t : Fin cfg0.N) :
    (dat0 V c).flushed 2 t = ((cfg0.win 2).blk t).view.read (Elt Ideal)
      (Spec.K.scaleRows (F := Ideal) (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S8192x1) hz, View.ld_unit_zero (S := S8192x64) hz]
  obtain ⟨e0, e1, e2, e3, e4, e5⟩ := idx_facts t
  funext j
  obtain ⟨p, q, rfl⟩ : ∃ (p : Fin 8192) (q : Fin 64), j = ix2 p q := ⟨j 0, j 1, eq_ix2 j⟩
  refine (pay_apply (iblk0 V c 0 t) (iblk0 V c 1 t) p q).trans ?_
  have h0 : ((cfg0.win 0).blk t).view.emb (ix2 p (0 : Fin 1)) = ix2 ((((cfg0.win 2).blk t).view.emb (ix2 p q)) 0) (0 : Fin 1) := by
    funext a; apply Fin.ext
    match a with
    | ⟨0, _⟩ => show win0_0.index t (0 : Fin 2) * 8192 + 1 * p.val = win0_2.index t (0 : Fin 2) * 8192 + 1 * p.val; omega
    | ⟨1, _⟩ => show win0_0.index t (1 : Fin 2) * 1 + 1 * 0 = 0; omega
  have h1 : ((cfg0.win 1).blk t).view.emb (ix2 p q) = ((cfg0.win 2).blk t).view.emb (ix2 p q) := by
    funext a; apply Fin.ext
    match a with
    | ⟨0, _⟩ => show win0_1.index t (0 : Fin 2) * 8192 + 1 * p.val = win0_2.index t (0 : Fin 2) * 8192 + 1 * p.val; omega
    | ⟨1, _⟩ => show win0_1.index t (1 : Fin 2) * 64 + 1 * q.val = win0_2.index t (1 : Fin 2) * 64 + 1 * q.val; omega
  exact scale_blk (V c (Pipeline.arrRef spec0 0)) (V c (Pipeline.arrRef spec0 1)) (((cfg0.win 0).blk t).view.emb (ix2 p (0 : Fin 1)))
    (((cfg0.win 1).blk t).view.emb (ix2 p q)) (((cfg0.win 2).blk t).view.emb (ix2 p q)) h0 h1

/-- An index of the output array is in point t's block iff each coordinate is in the block's range on its axis. -/
theorem mem_blk (t : Fin cfg0.N) (i : S3006464x64.Idx) :
    i ∈ ((cfg0.win 2).blk t).view.set ↔ ∀ a : Fin 2, win0_2.index t a * S8192x64.size a ≤ (i a).val ∧ (i a).val < win0_2.index t a * S8192x64.size a + S8192x64.size a := by
  show i ∈ ((View.whole main_v12).slice (win0_2.rect t)).set ↔ _
  rw [View.set_slice_whole, Rect.mem_set_unit]
  exact Iff.rfl

/-- Every row of the output lies in the block of the point its number divided by 8192 names. -/
theorem cover (i : S3006464x64.Idx) : ∃ t : Fin cfg0.N, (cfg0.win 2).flush t = true ∧ i ∈ ((cfg0.win 2).blk t).view.set := by
  have hi0 : (i 0).val < 3006464 := (i 0).isLt
  have hi1 : (i 1).val < 64 := (i 1).isLt
  have hN : grid0.N = 367 := N_0
  let t : Fin cfg0.N := ⟨(i 0).val / 8192, by show (i 0).val / 8192 < grid0.N; rw [hN]; omega⟩
  obtain ⟨e0, e1, e2, e3, e4, e5⟩ := idx_facts t
  have ht : t.val = (i 0).val / 8192 := rfl
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 64 ≤ (i 1).val ∧ (i 1).val < win0_2.index t (1 : Fin 2) * 64 + 64; omega

/-- After the region its output array is the gathered rows scaled row by row by the weight column. -/
theorem final (c : Dev nD) : (dat0 V c).arrAt 2 cfg0.N
    = Spec.K.scaleRows (F := Ideal) (V c (Pipeline.arrRef spec0 0)) (V c (Pipeline.arrRef spec0 1)) :=
  (dat0 V c).arrAt_eq_of_cover 2 _ (fun t _ => flushed_eq V c t) cover

end Cert.KernelIdeal.Scale0

end
-- ==== Proof.Scale1.lean ====
/-
  Scaling region 1 as one whole-array function.

  The region walks 367 blocks of 8192 edges. At block t it reads rows 8192·t … 8192·t + 8191 of the weight column and of
  the gathered rows, multiplies row e of the gathered rows by the weight of e, and writes the 8192 × 64 products back to
  the same rows of its output. The blocks tile the 3,006,464 rows, so after the region the output array holds, at every
  (e, c), the weight of e times the gathered entry (e, c) — whatever the arrays held when the region was entered.
-/
import proofs.«104805_j50294067036541_2_alg».proof.Proof.Gen.KernelIdeal.Frame
import proofs.«104805_j50294067036541_2_alg».proof.Proof.Spec
import proofs.«104805_j50294067036541_2_alg».proof.Proof.LibKeepdims
import Idealize.ShloMosaic.Lib.Pipeline.Value
import Idealize.ShloMosaic.Lib.ValueIdx

set_option maxRecDepth 16384

noncomputable section

namespace Cert.KernelIdeal.Scale1

open Cert.KernelIdeal Cert.KernelIdeal.Gen Cert.Proof
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's product at row p, column q of a block: the block's weight of row p times the block's entry (p, q). -/
theorem pay_apply (x0 : Vec Ideal S8192x1 .f32) (x1 : Vec Ideal S8192x64 .f32) (p : Fin 8192) (q : Fin 64) :
    k1_pay1 (F := Ideal) x0 x1 (ix2 p q) = x0 (ix2 p (0 : Fin 1)) * x1 (ix2 p q) := by
  unfold k1_pay1
  rw [shapeCast_self, shapeCast_self, mulf_apply, Cert.LibKeepdims.broadcastTo_a1_ab_apply]

/-- A weight times an entry is the row-scaled array's entry, when the weight is the entry's row's. -/
theorem scale_blk (A0 : S3006464x1.Idx → EReal) (A1 : S3006464x64.Idx → EReal) (i0 : S3006464x1.Idx) (i1 i2 : S3006464x64.Idx)
    (h0 : i0 = ix2 (i2 0) (0 : Fin 1)) (h1 : i1 = i2) : A0 i0 * A1 i1 = Spec.K.scaleRows (F := Ideal) A0 A1 i2 := by
  subst h0 h1; rfl

/-- The three windows move together: at point t each is at block t along the edges and block 0 along the features. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the row-scaled array. -/
theorem flushed_eq (c : Dev nD) (t : Fin cfg1.N) :
    (dat1 V c).flushed 2 t = ((cfg1.win 2).blk t).view.read (Elt Ideal)
      (Spec.K.scaleRows (F := Ideal) (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S8192x1) hz, View.ld_unit_zero (S := S8192x64) hz]
  obtain ⟨e0, e1, e2, e3, e4, e5⟩ := idx_facts t
  funext j
  obtain ⟨p, q, rfl⟩ : ∃ (p : Fin 8192) (q : Fin 64), j = ix2 p q := ⟨j 0, j 1, eq_ix2 j⟩
  refine (pay_apply (iblk1 V c 0 t) (iblk1 V c 1 t) p q).trans ?_
  have h0 : ((cfg1.win 0).blk t).view.emb (ix2 p (0 : Fin 1)) = ix2 ((((cfg1.win 2).blk t).view.emb (ix2 p q)) 0) (0 : Fin 1) := by
    funext a; apply Fin.ext
    match a with
    | ⟨0, _⟩ => show win1_0.index t (0 : Fin 2) * 8192 + 1 * p.val = win1_2.index t (0 : Fin 2) * 8192 + 1 * p.val; omega
    | ⟨1, _⟩ => show win1_0.index t (1 : Fin 2) * 1 + 1 * 0 = 0; omega
  have h1 : ((cfg1.win 1).blk t).view.emb (ix2 p q) = ((cfg1.win 2).blk t).view.emb (ix2 p q) := by
    funext a; apply Fin.ext
    match a with
    | ⟨0, _⟩ => show win1_1.index t (0 : Fin 2) * 8192 + 1 * p.val = win1_2.index t (0 : Fin 2) * 8192 + 1 * p.val; omega
    | ⟨1, _⟩ => show win1_1.index t (1 : Fin 2) * 64 + 1 * q.val = win1_2.index t (1 : Fin 2) * 64 + 1 * q.val; omega
  exact scale_blk (V c (Pipeline.arrRef spec1 0)) (V c (Pipeline.arrRef spec1 1)) (((cfg1.win 0).blk t).view.emb (ix2 p (0 : Fin 1)))
    (((cfg1.win 1).blk t).view.emb (ix2 p q)) (((cfg1.win 2).blk t).view.emb (ix2 p q)) h0 h1

/-- An index of the output array is in point t's block iff each coordinate is in the block's range on its axis. -/
theorem mem_blk (t : Fin cfg1.N) (i : S3006464x64.Idx) :
    i ∈ ((cfg1.win 2).blk t).view.set ↔ ∀ a : Fin 2, win1_2.index t a * S8192x64.size a ≤ (i a).val ∧ (i a).val < win1_2.index t a * S8192x64.size a + S8192x64.size a := by
  show i ∈ ((View.whole main_v24).slice (win1_2.rect t)).set ↔ _
  rw [View.set_slice_whole, Rect.mem_set_unit]
  exact Iff.rfl

/-- Every row of the output lies in the block of the point its number divided by 8192 names. -/
theorem cover (i : S3006464x64.Idx) : ∃ t : Fin cfg1.N, (cfg1.win 2).flush t = true ∧ i ∈ ((cfg1.win 2).blk t).view.set := by
  have hi0 : (i 0).val < 3006464 := (i 0).isLt
  have hi1 : (i 1).val < 64 := (i 1).isLt
  have hN : grid1.N = 367 := N_1
  let t : Fin cfg1.N := ⟨(i 0).val / 8192, by show (i 0).val / 8192 < grid1.N; rw [hN]; omega⟩
  obtain ⟨e0, e1, e2, e3, e4, e5⟩ := idx_facts t
  have ht : t.val = (i 0).val / 8192 := rfl
  refine ⟨t, flush1_2 t, ?_⟩
  rw [mem_blk]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 64 ≤ (i 1).val ∧ (i 1).val < win1_2.index t (1 : Fin 2) * 64 + 64; omega

/-- After the region its output array is the gathered rows scaled row by row by the weight column. -/
theorem final (c : Dev nD) : (dat1 V c).arrAt 2 cfg1.N
    = Spec.K.scaleRows (F := Ideal) (V c (Pipeline.arrRef spec1 0)) (V c (Pipeline.arrRef spec1 1)) :=
  (dat1 V c).arrAt_eq_of_cover 2 _ (fun t _ => flushed_eq V c t) cover

end Cert.KernelIdeal.Scale1

end
-- ==== Proof.Scale2.lean ====
/-
  Scaling region 2 as one whole-array function.

  The region walks 367 blocks of 8192 edges. At block t it reads rows 8192·t … 8192·t + 8191 of the weight column and of
  the gathered rows, multiplies row e of the gathered rows by the weight of e, and writes the 8192 × 64 products back to
  the same rows of its output. The blocks tile the 3,006,464 rows, so after the region the output array holds, at every
  (e, c), the weight of e times the gathered entry (e, c) — whatever the arrays held when the region was entered.
-/
import proofs.«104805_j50294067036541_2_alg».proof.Proof.Gen.KernelIdeal.Frame
import proofs.«104805_j50294067036541_2_alg».proof.Proof.Spec
import proofs.«104805_j50294067036541_2_alg».proof.Proof.LibKeepdims
import Idealize.ShloMosaic.Lib.Pipeline.Value
import Idealize.ShloMosaic.Lib.ValueIdx

set_option maxRecDepth 16384

noncomputable section

namespace Cert.KernelIdeal.Scale2

open Cert.KernelIdeal Cert.KernelIdeal.Gen Cert.Proof
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's product at row p, column q of a block: the block's weight of row p times the block's entry (p, q). -/
theorem pay_apply (x0 : Vec Ideal S8192x1 .f32) (x1 : Vec Ideal S8192x64 .f32) (p : Fin 8192) (q : Fin 64) :
    k2_pay1 (F := Ideal) x0 x1 (ix2 p q) = x0 (ix2 p (0 : Fin 1)) * x1 (ix2 p q) := by
  unfold k2_pay1
  rw [shapeCast_self, shapeCast_self, mulf_apply, Cert.LibKeepdims.broadcastTo_a1_ab_apply]

/-- A weight times an entry is the row-scaled array's entry, when the weight is the entry's row's. -/
theorem scale_blk (A0 : S3006464x1.Idx → EReal) (A1 : S3006464x64.Idx → EReal) (i0 : S3006464x1.Idx) (i1 i2 : S3006464x64.Idx)
    (h0 : i0 = ix2 (i2 0) (0 : Fin 1)) (h1 : i1 = i2) : A0 i0 * A1 i1 = Spec.K.scaleRows (F := Ideal) A0 A1 i2 := by
  subst h0 h1; rfl

/-- The three windows move together: at point t each is at block t along the edges and block 0 along the features. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the row-scaled array. -/
theorem flushed_eq (c : Dev nD) (t : Fin cfg2.N) :
    (dat2 V c).flushed 2 t = ((cfg2.win 2).blk t).view.read (Elt Ideal)
      (Spec.K.scaleRows (F := Ideal) (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S8192x1) hz, View.ld_unit_zero (S := S8192x64) hz]
  obtain ⟨e0, e1, e2, e3, e4, e5⟩ := idx_facts t
  funext j
  obtain ⟨p, q, rfl⟩ : ∃ (p : Fin 8192) (q : Fin 64), j = ix2 p q := ⟨j 0, j 1, eq_ix2 j⟩
  refine (pay_apply (iblk2 V c 0 t) (iblk2 V c 1 t) p q).trans ?_
  have h0 : ((cfg2.win 0).blk t).view.emb (ix2 p (0 : Fin 1)) = ix2 ((((cfg2.win 2).blk t).view.emb (ix2 p q)) 0) (0 : Fin 1) := by
    funext a; apply Fin.ext
    match a with
    | ⟨0, _⟩ => show win2_0.index t (0 : Fin 2) * 8192 + 1 * p.val = win2_2.index t (0 : Fin 2) * 8192 + 1 * p.val; omega
    | ⟨1, _⟩ => show win2_0.index t (1 : Fin 2) * 1 + 1 * 0 = 0; omega
  have h1 : ((cfg2.win 1).blk t).view.emb (ix2 p q) = ((cfg2.win 2).blk t).view.emb (ix2 p q) := by
    funext a; apply Fin.ext
    match a with
    | ⟨0, _⟩ => show win2_1.index t (0 : Fin 2) * 8192 + 1 * p.val = win2_2.index t (0 : Fin 2) * 8192 + 1 * p.val; omega
    | ⟨1, _⟩ => show win2_1.index t (1 : Fin 2) * 64 + 1 * q.val = win2_2.index t (1 : Fin 2) * 64 + 1 * q.val; omega
  exact scale_blk (V c (Pipeline.arrRef spec2 0)) (V c (Pipeline.arrRef spec2 1)) (((cfg2.win 0).blk t).view.emb (ix2 p (0 : Fin 1)))
    (((cfg2.win 1).blk t).view.emb (ix2 p q)) (((cfg2.win 2).blk t).view.emb (ix2 p q)) h0 h1

/-- An index of the output array is in point t's block iff each coordinate is in the block's range on its axis. -/
theorem mem_blk (t : Fin cfg2.N) (i : S3006464x64.Idx) :
    i ∈ ((cfg2.win 2).blk t).view.set ↔ ∀ a : Fin 2, win2_2.index t a * S8192x64.size a ≤ (i a).val ∧ (i a).val < win2_2.index t a * S8192x64.size a + S8192x64.size a := by
  show i ∈ ((View.whole main_v36).slice (win2_2.rect t)).set ↔ _
  rw [View.set_slice_whole, Rect.mem_set_unit]
  exact Iff.rfl

/-- Every row of the output lies in the block of the point its number divided by 8192 names. -/
theorem cover (i : S3006464x64.Idx) : ∃ t : Fin cfg2.N, (cfg2.win 2).flush t = true ∧ i ∈ ((cfg2.win 2).blk t).view.set := by
  have hi0 : (i 0).val < 3006464 := (i 0).isLt
  have hi1 : (i 1).val < 64 := (i 1).isLt
  have hN : grid2.N = 367 := N_2
  let t : Fin cfg2.N := ⟨(i 0).val / 8192, by show (i 0).val / 8192 < grid2.N; rw [hN]; omega⟩
  obtain ⟨e0, e1, e2, e3, e4, e5⟩ := idx_facts t
  have ht : t.val = (i 0).val / 8192 := rfl
  refine ⟨t, flush2_2 t, ?_⟩
  rw [mem_blk]
  intro a
  match a with
  | ⟨0, _⟩ => show win2_2.index t (0 : Fin 2) * 8192 ≤ (i 0).val ∧ (i 0).val < win2_2.index t (0 : Fin 2) * 8192 + 8192; omega
  | ⟨1, _⟩ => show win2_2.index t (1 : Fin 2) * 64 ≤ (i 1).val ∧ (i 1).val < win2_2.index t (1 : Fin 2) * 64 + 64; omega

/-- After the region its output array is the gathered rows scaled row by row by the weight column. -/
theorem final (c : Dev nD) : (dat2 V c).arrAt 2 cfg2.N
    = Spec.K.scaleRows (F := Ideal) (V c (Pipeline.arrRef spec2 0)) (V c (Pipeline.arrRef spec2 1)) :=
  (dat2 V c).arrAt_eq_of_cover 2 _ (fun t _ => flushed_eq V c t) cover

end Cert.KernelIdeal.Scale2

end
-- ==== Proof.Fwd3.lean ====
/-
  The last region as one whole-array function.

  Its grid has a single point, and at that point every window's block is its whole array: the two 8192 × 64 row tables,
  the two 64 × 64 matrices, and the 8192 × 1 result. So after the region the result array holds the body's value of the
  four arrays as the region found them.
-/
import proofs.«104805_j50294067036541_2_alg».proof.Proof.Gen.KernelIdeal.Frame
import proofs.«104805_j50294067036541_2_alg».proof.Proof.Spec
import Idealize.ShloMosaic.Lib.Pipeline.Value
import Idealize.ShloMosaic.Lib.ValueIdx

set_option maxRecDepth 16384

noncomputable section

namespace Cert.KernelIdeal.Fwd3

open Cert.KernelIdeal Cert.KernelIdeal.Gen Cert.Proof
open Idealize.ShloMosaic Idealize.ShloMosaic.TcCoe Idealize.SL.Sem Idealize.ShloMosaic.StableHlo
open Idealize.ShloMosaic.ValueIdx Idealize.SL
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- At the grid's one point every window is at block 0 on both axes. -/
theorem idx_facts : ∀ t : Fin cfg3.N, (∀ a : Fin 2, win3_0.index t a = 0) ∧ (∀ a : Fin 2, win3_1.index t a = 0)
    ∧ (∀ a : Fin 2, win3_2.index t a = 0) ∧ (∀ a : Fin 2, win3_3.index t a = 0) ∧ (∀ a : Fin 2, win3_4.index t a = 0) :=
  (by decide +kernel : ∀ t : Fin grid3.N, _)

/-- Window 0's one block is its whole array. -/
theorem iblk_whole0 (c : Dev nD) (t : Fin cfg3.N) : iblk3 V c 0 t = V c (Pipeline.arrRef spec3 0) := by
  unfold iblk3
  funext y
  show V c (Pipeline.arrRef spec3 0) (((cfg3.win 0).blk t).view.emb y) = V c (Pipeline.arrRef spec3 0) y
  refine congrArg _ ?_
  funext a; apply Fin.ext
  have h := (idx_facts t).1
  match a with
  | ⟨0, _⟩ => show win3_0.index t (0 : Fin 2) * 8192 + 1 * (y 0).val = (y 0).val; have := h 0; omega
  | ⟨1, _⟩ => show win3_0.index t (1 : Fin 2) * 64 + 1 * (y 1).val = (y 1).val; have := h 1; omega

/-- Window 1's one block is its whole array. -/
theorem iblk_whole1 (c : Dev nD) (t : Fin cfg3.N) : iblk3 V c 1 t = V c (Pipeline.arrRef spec3 1) := by
  unfold iblk3
  funext y
  show V c (Pipeline.arrRef spec3 1) (((cfg3.win 1).blk t).view.emb y) = V c (Pipeline.arrRef spec3 1) y
  refine congrArg _ ?_
  funext a; apply Fin.ext
  have h := (idx_facts t).2.1
  match a with
  | ⟨0, _⟩ => show win3_1.index t (0 : Fin 2) * 8192 + 1 * (y 0).val = (y 0).val; have := h 0; omega
  | ⟨1, _⟩ => show win3_1.index t (1 : Fin 2) * 64 + 1 * (y 1).val = (y 1).val; have := h 1; omega

/-- Window 2's one block is its whole array. -/
theorem iblk_whole2 (c : Dev nD) (t : Fin cfg3.N) : iblk3 V c 2 t = V c (Pipeline.arrRef spec3 2) := by
  unfold iblk3
  funext y
  show V c (Pipeline.arrRef spec3 2) (((cfg3.win 2).blk t).view.emb y) = V c (Pipeline.arrRef spec3 2) y
  refine congrArg _ ?_
  funext a; apply Fin.ext
  have h := (idx_facts t).2.2.1
  match a with
  | ⟨0, _⟩ => show win3_2.index t (0 : Fin 2) * 64 + 1 * (y 0).val = (y 0).val; have := h 0; omega
  | ⟨1, _⟩ => show win3_2.index t (1 : Fin 2) * 64 + 1 * (y 1).val = (y 1).val; have := h 1; omega

/-- Window 3's one block is its whole array. -/
theorem iblk_whole3 (c : Dev nD) (t : Fin cfg3.N) : iblk3 V c 3 t = V c (Pipeline.arrRef spec3 3) := by
  unfold iblk3
  funext y
  show V c (Pipeline.arrRef spec3 3) (((cfg3.win 3).blk t).view.emb y) = V c (Pipeline.arrRef spec3 3) y
  refine congrArg _ ?_
  funext a; apply Fin.ext
  have h := (idx_facts t).2.2.2.1
  match a with
  | ⟨0, _⟩ => show win3_3.index t (0 : Fin 2) * 64 + 1 * (y 0).val = (y 0).val; have := h 0; omega
  | ⟨1, _⟩ => show win3_3.index t (1 : Fin 2) * 64 + 1 * (y 1).val = (y 1).val; have := h 1; omega

/-- Reading the result window's one block of an array gives the array. -/
theorem read_whole4 (t : Fin cfg3.N) (G : Vec F S8192x1 .f32) : ((cfg3.win 4).blk t).view.read (Elt F) G = G := by
  funext y
  show G (((cfg3.win 4).blk t).view.emb y) = G y
  refine congrArg _ ?_
  funext a; apply Fin.ext
  have h := (idx_facts t).2.2.2.2
  match a with
  | ⟨0, _⟩ => show win3_4.index t (0 : Fin 2) * 8192 + 1 * (y 0).val = (y 0).val; have := h 0; omega
  | ⟨1, _⟩ => show win3_4.index t (1 : Fin 2) * 1 + 1 * (y 1).val = (y 1).val; have := h 1; omega

/-- What the one point writes back is the body's value of the four arrays. -/
theorem flushed_eq (c : Dev nD) (t : Fin cfg3.N) :
    (dat3 V c).flushed 4 t = ((cfg3.win 4).blk t).view.read (Elt F)
      (k3_pay1 (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero hz]
  simp only [View.ld_unit_zero (S := S8192x64) hz, View.ld_unit_zero (S := S64x64) hz]
  rw [iblk_whole0, iblk_whole1, iblk_whole2, iblk_whole3, read_whole4]
  rfl

/-- An index of the result array is in the point's block iff each coordinate is in the block's range on its axis. -/
theorem mem_blk (t : Fin cfg3.N) (i : S8192x1.Idx) :
    i ∈ ((cfg3.win 4).blk t).view.set ↔ ∀ a : Fin 2, win3_4.index t a * S8192x1.size a ≤ (i a).val ∧ (i a).val < win3_4.index t a * S8192x1.size a + S8192x1.size a := by
  show i ∈ ((View.whole main_v61).slice (win3_4.rect t)).set ↔ _
  rw [View.set_slice_whole, Rect.mem_set_unit]
  exact Iff.rfl

theorem cover (i : S8192x1.Idx) : ∃ t : Fin cfg3.N, (cfg3.win 4).flush t = true ∧ i ∈ ((cfg3.win 4).blk t).view.set := by
  have hi0 : (i 0).val < 8192 := (i 0).isLt
  have hi1 : (i 1).val < 1 := (i 1).isLt
  have h := (idx_facts t3_0).2.2.2.2
  refine ⟨t3_0, flush3_4 t3_0, ?_⟩
  rw [mem_blk]
  intro a
  match a with
  | ⟨0, _⟩ => show win3_4.index t3_0 (0 : Fin 2) * 8192 ≤ (i 0).val ∧ (i 0).val < win3_4.index t3_0 (0 : Fin 2) * 8192 + 8192; have := h 0; omega
  | ⟨1, _⟩ => show win3_4.index t3_0 (1 : Fin 2) * 1 ≤ (i 1).val ∧ (i 1).val < win3_4.index t3_0 (1 : Fin 2) * 1 + 1; have := h 1; omega

/-- After the region its result array is the body's value of the four arrays it was entered with. -/
theorem final (c : Dev nD) : (dat3 V c).arrAt 4 cfg3.N
    = k3_pay1 (V c (Pipeline.arrRef spec3 0)) (V c (Pipeline.arrRef spec3 1)) (V c (Pipeline.arrRef spec3 2)) (V c (Pipeline.arrRef spec3 3)) :=
  (dat3 V c).arrAt_eq_of_cover 4 _ (fun t _ => flushed_eq V c t) cover

end Cert.KernelIdeal.Fwd3

end
-- ==== Proof.Chain.lean ====
/-
  The kernel program's result as a function of its arguments.

  The contents of the buffers are followed from the launch to the return, boundary by boundary. Each scaling region
  leaves the gathered rows scaled by the padded weights; the host scatters them by the padded destinations into the next
  table x₁, x₂, x₃ (one round of message passing each) and keeps the running sum x₀ + x₁ + x₂ + x₃; the mean table is read
  at the batch's user and item rows; the last region applies its body to these rows and the two transposed weight
  matrices; and the result is that column with its unit axis dropped.
-/
import proofs.«104805_j50294067036541_2_alg».proof.Proof.Gen.KernelIdeal.Frame
import proofs.«104805_j50294067036541_2_alg».proof.Proof.Spec
import proofs.«104805_j50294067036541_2_alg».proof.Proof.HostA
import proofs.«104805_j50294067036541_2_alg».proof.Proof.HostB
import proofs.«104805_j50294067036541_2_alg».proof.Proof.Scale0
import proofs.«104805_j50294067036541_2_alg».proof.Proof.Scale1
import proofs.«104805_j50294067036541_2_alg».proof.Proof.Scale2
import proofs.«104805_j50294067036541_2_alg».proof.Proof.Fwd3

set_option maxRecDepth 16384

noncomputable section

namespace Cert.KernelIdeal.Chain

open Cert.KernelIdeal Cert.KernelIdeal.Gen Cert.Proof
open Idealize.ShloMosaic Idealize.ShloMosaic.TcCoe Idealize.SL.Sem Idealize.ShloMosaic.StableHlo
open Cert.KernelIdeal.HostA Cert.KernelIdeal.HostB
open Idealize.ShloMosaic.Pipeline (Dat Cfg Window)

variable (m : (ℓ : Loc nD τ sig) → Buf (Elt Ideal) ℓ) (ρ : Dev nD → PrngReg) (c : Dev nD)

/-- The node tables after one, two and three rounds of message passing over the padded edge arrays. -/
def x1 : (⟨S100000x64, .f32⟩ : BufTy).Contents (Elt Ideal) := Spec.K.layer (srcP m c) (dstP m c) (valP m c) (x0 m c)
def x2 : (⟨S100000x64, .f32⟩ : BufTy).Contents (Elt Ideal) := Spec.K.layer (srcP m c) (dstP m c) (valP m c) (x1 m c)
def x3 : (⟨S100000x64, .f32⟩ : BufTy).Contents (Elt Ideal) := Spec.K.layer (srcP m c) (dstP m c) (valP m c) (x2 m c)

/-- The mean of the four tables. -/
def mean : (⟨S100000x64, .f32⟩ : BufTy).Contents (Elt Ideal) := meanTable (addf (addf (addf (x0 m c) (x1 m c)) (x2 m c)) (x3 m c))

/-! ## Region 0 and the stretch after it -/

theorem W8_v12 : W8 m ρ c (Proc.devRef .tc main_v12) = Spec.K.scaleRows (Spec.K.valCol (valP m c)) (Spec.K.gath (x0 m c) (srcP m c)) := by
  rw [← W7_v4 m ρ c, ← W7_v11 m ρ c]
  exact (W8_arr m ρ c 2).trans (Scale0.final (V7 m ρ) c)
theorem W8_v4 : W8 m ρ c (Proc.devRef .tc main_v4) = Spec.K.valCol (valP m c) :=
  (W8_arr m ρ c 0).trans ((((dat0 (V7 m ρ) c).arrAt_in 0 rfl cfg0.N).trans (A_eq0 (V7 m ρ) c 0)).trans (W7_v4 m ρ c))

theorem W8_v0 : W8 m ρ c (Proc.devRef .tc main_v0) = x0 m c :=
  (W8_of_ne m ρ c main_v0 (by decide)).trans (W7_v0 m ρ c)

theorem W8_v1 : W8 m ρ c (Proc.devRef .tc main_v1) = srcP m c :=
  (W8_of_ne m ρ c main_v1 (by decide)).trans (W7_v1 m ρ c)

theorem W8_v2 : W8 m ρ c (Proc.devRef .tc main_v2) = dstP m c :=
  (W8_of_ne m ρ c main_v2 (by decide)).trans (W7_v2 m ρ c)

theorem W8_arg0 : W8 m ρ c (Proc.devRef .tc main_arg0) = m ((c.tc : Thread nD τ).loc main_arg0) :=
  (W8_of_ne m ρ c main_arg0 (by decide)).trans (W7_main_arg0 m ρ c)

theorem W8_arg1 : W8 m ρ c (Proc.devRef .tc main_arg1) = m ((c.tc : Thread nD τ).loc main_arg1) :=
  (W8_of_ne m ρ c main_arg1 (by decide)).trans (W7_main_arg1 m ρ c)

theorem W8_arg7 : W8 m ρ c (Proc.devRef .tc main_arg7) = m ((c.tc : Thread nD τ).loc main_arg7) :=
  (W8_of_ne m ρ c main_arg7 (by decide)).trans (W7_main_arg7 m ρ c)

theorem W8_arg8 : W8 m ρ c (Proc.devRef .tc main_arg8) = m ((c.tc : Thread nD τ).loc main_arg8) :=
  (W8_of_ne m ρ c main_arg8 (by decide)).trans (W7_main_arg8 m ρ c)

theorem W9_v16 : W9 m ρ c (Proc.devRef .tc main_v16) = addf (x0 m c) (x1 m c) := by
  show after hostOps1 (W8 m ρ c) (Proc.devRef .tc main_v16) = _
  rw [h1_v16, W8_v0, W8_v2, W8_v12]
  rfl

theorem W9_v23 : W9 m ρ c (Proc.devRef .tc main_v23) = Spec.K.gath (x1 m c) (srcP m c) := by
  show after hostOps1 (W8 m ρ c) (Proc.devRef .tc main_v23) = _
  rw [h1_v23, W8_v1, W8_v2, W8_v12]
  rfl

theorem W9_v4 : W9 m ρ c (Proc.devRef .tc main_v4) = Spec.K.valCol (valP m c) :=
  (h1_main_v4 (W8 m ρ c)).trans (W8_v4 m ρ c)

theorem W9_v1 : W9 m ρ c (Proc.devRef .tc main_v1) = srcP m c :=
  (h1_main_v1 (W8 m ρ c)).trans (W8_v1 m ρ c)

theorem W9_v2 : W9 m ρ c (Proc.devRef .tc main_v2) = dstP m c :=
  (h1_main_v2 (W8 m ρ c)).trans (W8_v2 m ρ c)

theorem W9_arg0 : W9 m ρ c (Proc.devRef .tc main_arg0) = m ((c.tc : Thread nD τ).loc main_arg0) :=
  (h1_main_arg0 (W8 m ρ c)).trans (W8_arg0 m ρ c)

theorem W9_arg1 : W9 m ρ c (Proc.devRef .tc main_arg1) = m ((c.tc : Thread nD τ).loc main_arg1) :=
  (h1_main_arg1 (W8 m ρ c)).trans (W8_arg1 m ρ c)

theorem W9_arg7 : W9 m ρ c (Proc.devRef .tc main_arg7) = m ((c.tc : Thread nD τ).loc main_arg7) :=
  (h1_main_arg7 (W8 m ρ c)).trans (W8_arg7 m ρ c)

theorem W9_arg8 : W9 m ρ c (Proc.devRef .tc main_arg8) = m ((c.tc : Thread nD τ).loc main_arg8) :=
  (h1_main_arg8 (W8 m ρ c)).trans (W8_arg8 m ρ c)

/-! ## Region 1 and the stretch after it -/

theorem W10_v24 : W10 m ρ c (Proc.devRef .tc main_v24) = Spec.K.scaleRows (Spec.K.valCol (valP m c)) (Spec.K.gath (x1 m c) (srcP m c)) := by
  rw [← W9_v4 m ρ c, ← W9_v23 m ρ c]
  exact (W10_arr m ρ c 2).trans (Scale1.final (V9 m ρ) c)
theorem W10_v4 : W10 m ρ c (Proc.devRef .tc main_v4) = Spec.K.valCol (valP m c) :=
  (W10_arr m ρ c 0).trans ((((dat1 (V9 m ρ) c).arrAt_in 0 rfl cfg1.N).trans (A_eq1 (V9 m ρ) c 0)).trans (W9_v4 m ρ c))

theorem W10_v16 : W10 m ρ c (Proc.devRef .tc main_v16) = addf (x0 m c) (x1 m c) :=
  (W10_of_ne m ρ c main_v16 (by decide)).trans (W9_v16 m ρ c)

theorem W10_v1 : W10 m ρ c (Proc.devRef .tc main_v1) = srcP m c :=
  (W10_of_ne m ρ c main_v1 (by decide)).trans (W9_v1 m ρ c)

theorem W10_v2 : W10 m ρ c (Proc.devRef .tc main_v2) = dstP m c :=
  (W10_of_ne m ρ c main_v2 (by decide)).trans (W9_v2 m ρ c)

theorem W10_arg0 : W10 m ρ c (Proc.devRef .tc main_arg0) = m ((c.tc : Thread nD τ).loc main_arg0) :=
  (W10_of_ne m ρ c main_arg0 (by decide)).trans (W9_arg0 m ρ c)

theorem W10_arg1 : W10 m ρ c (Proc.devRef .tc main_arg1) = m ((c.tc : Thread nD τ).loc main_arg1) :=
  (W10_of_ne m ρ c main_arg1 (by decide)).trans (W9_arg1 m ρ c)

theorem W10_arg7 : W10 m ρ c (Proc.devRef .tc main_arg7) = m ((c.tc : Thread nD τ).loc main_arg7) :=
  (W10_of_ne m ρ c main_arg7 (by decide)).trans (W9_arg7 m ρ c)

theorem W10_arg8 : W10 m ρ c (Proc.devRef .tc main_arg8) = m ((c.tc : Thread nD τ).loc main_arg8) :=
  (W10_of_ne m ρ c main_arg8 (by decide)).trans (W9_arg8 m ρ c)

theorem W11_v28 : W11 m ρ c (Proc.devRef .tc main_v28) = addf (addf (x0 m c) (x1 m c)) (x2 m c) := by
  show after hostOps2 (W10 m ρ c) (Proc.devRef .tc main_v28) = _
  rw [h2_v28, W10_v16, W10_v2, W10_v24]
  rfl

theorem W11_v35 : W11 m ρ c (Proc.devRef .tc main_v35) = Spec.K.gath (x2 m c) (srcP m c) := by
  show after hostOps2 (W10 m ρ c) (Proc.devRef .tc main_v35) = _
  rw [h2_v35, W10_v1, W10_v2, W10_v24]
  rfl

theorem W11_v4 : W11 m ρ c (Proc.devRef .tc main_v4) = Spec.K.valCol (valP m c) :=
  (h2_main_v4 (W10 m ρ c)).trans (W10_v4 m ρ c)

theorem W11_v2 : W11 m ρ c (Proc.devRef .tc main_v2) = dstP m c :=
  (h2_main_v2 (W10 m ρ c)).trans (W10_v2 m ρ c)

theorem W11_arg0 : W11 m ρ c (Proc.devRef .tc main_arg0) = m ((c.tc : Thread nD τ).loc main_arg0) :=
  (h2_main_arg0 (W10 m ρ c)).trans (W10_arg0 m ρ c)

theorem W11_arg1 : W11 m ρ c (Proc.devRef .tc main_arg1) = m ((c.tc : Thread nD τ).loc main_arg1) :=
  (h2_main_arg1 (W10 m ρ c)).trans (W10_arg1 m ρ c)

theorem W11_arg7 : W11 m ρ c (Proc.devRef .tc main_arg7) = m ((c.tc : Thread nD τ).loc main_arg7) :=
  (h2_main_arg7 (W10 m ρ c)).trans (W10_arg7 m ρ c)

theorem W11_arg8 : W11 m ρ c (Proc.devRef .tc main_arg8) = m ((c.tc : Thread nD τ).loc main_arg8) :=
  (h2_main_arg8 (W10 m ρ c)).trans (W10_arg8 m ρ c)

/-! ## Region 2 and the stretch after it -/

theorem W12_v36 : W12 m ρ c (Proc.devRef .tc main_v36) = Spec.K.scaleRows (Spec.K.valCol (valP m c)) (Spec.K.gath (x2 m c) (srcP m c)) := by
  rw [← W11_v4 m ρ c, ← W11_v35 m ρ c]
  exact (W12_arr m ρ c 2).trans (Scale2.final (V11 m ρ) c)

theorem W12_v28 : W12 m ρ c (Proc.devRef .tc main_v28) = addf (addf (x0 m c) (x1 m c)) (x2 m c) :=
  (W12_of_ne m ρ c main_v28 (by decide)).trans (W11_v28 m ρ c)

theorem W12_v2 : W12 m ρ c (Proc.devRef .tc main_v2) = dstP m c :=
  (W12_of_ne m ρ c main_v2 (by decide)).trans (W11_v2 m ρ c)

theorem W12_arg0 : W12 m ρ c (Proc.devRef .tc main_arg0) = m ((c.tc : Thread nD τ).loc main_arg0) :=
  (W12_of_ne m ρ c main_arg0 (by decide)).trans (W11_arg0 m ρ c)

theorem W12_arg1 : W12 m ρ c (Proc.devRef .tc main_arg1) = m ((c.tc : Thread nD τ).loc main_arg1) :=
  (W12_of_ne m ρ c main_arg1 (by decide)).trans (W11_arg1 m ρ c)

theorem W12_arg7 : W12 m ρ c (Proc.devRef .tc main_arg7) = m ((c.tc : Thread nD τ).loc main_arg7) :=
  (W12_of_ne m ρ c main_arg7 (by decide)).trans (W11_arg7 m ρ c)

theorem W12_arg8 : W12 m ρ c (Proc.devRef .tc main_arg8) = m ((c.tc : Thread nD τ).loc main_arg8) :=
  (W12_of_ne m ρ c main_arg8 (by decide)).trans (W11_arg8 m ρ c)

theorem W13_v51 : W13 m ρ c (Proc.devRef .tc main_v51) = userRows (mean m c) (m ((c.tc : Thread nD τ).loc main_arg0)) := by
  show after hostOps3 (W12 m ρ c) (Proc.devRef .tc main_v51) = _
  rw [h3_v51, W12_v28, W12_v2, W12_v36, W12_arg0]
  rfl

theorem W13_v58 : W13 m ρ c (Proc.devRef .tc main_v58) = itemRows (mean m c) (m ((c.tc : Thread nD τ).loc main_arg1)) := by
  show after hostOps3 (W12 m ρ c) (Proc.devRef .tc main_v58) = _
  rw [h3_v58, W12_v28, W12_v2, W12_v36, W12_arg1]
  rfl

theorem W13_v59 : W13 m ρ c (Proc.devRef .tc main_v59) = transpose S64x64 [1, 0] (m ((c.tc : Thread nD τ).loc main_arg7)) transposes_S64x64_S64x64_1_0 := by
  show after hostOps3 (W12 m ρ c) (Proc.devRef .tc main_v59) = _
  rw [h3_v59, W12_arg7]

theorem W13_v60 : W13 m ρ c (Proc.devRef .tc main_v60) = transpose S64x64 [1, 0] (m ((c.tc : Thread nD τ).loc main_arg8)) transposes_S64x64_S64x64_1_0 := by
  show after hostOps3 (W12 m ρ c) (Proc.devRef .tc main_v60) = _
  rw [h3_v60, W12_arg8]

/-! ## The last region and the result -/

/-- The last region's column: its body's value of the batch's rows and the transposed weight matrices. -/
def lastCol : Vec Ideal S8192x1 .f32 :=
  k3_pay1 (F := Ideal) (userRows (mean m c) (m ((c.tc : Thread nD τ).loc main_arg0))) (itemRows (mean m c) (m ((c.tc : Thread nD τ).loc main_arg1)))
    (transpose S64x64 [1, 0] (m ((c.tc : Thread nD τ).loc main_arg7)) transposes_S64x64_S64x64_1_0) (transpose S64x64 [1, 0] (m ((c.tc : Thread nD τ).loc main_arg8)) transposes_S64x64_S64x64_1_0)

theorem W14_v61 : W14 m ρ c (Proc.devRef .tc main_v61) = lastCol m c := by
  unfold lastCol
  rw [← W13_v51 m ρ c, ← W13_v58 m ρ c, ← W13_v59 m ρ c, ← W13_v60 m ρ c]
  exact (W14_arr m ρ c 4).trans (Fwd3.final (V13 m ρ) c)

/-- THE RESULT: the last region's column with its unit axis dropped. -/
theorem W15_v62 : W15 m ρ c (Proc.devRef .tc main_v62) = shapeCast S8192 (lastCol m c) shapeCasts_S8192x1_S8192 := by
  show after hostOps4 (W14 m ρ c) (Proc.devRef .tc main_v62) = _
  rw [h4_v62, W14_v61]

end Cert.KernelIdeal.Chain

end
-- ==== Proof.RefValue.lean ====
/-
  The reference program's result as a function of its arguments, in the stages' names.

  The reference joins the two embedding tables into x₀, applies three rounds of message passing over the edge arrays as
  given, divides x₀ + x₁ + x₂ + x₃ by 4, reads the batch's user and item rows of that mean table, and applies its last
  line of host operations to those rows and the two transposed weight matrices.
-/
import proofs.«104805_j50294067036541_2_alg».proof.Proof.Gen.ReferenceIdeal.Read
import proofs.«104805_j50294067036541_2_alg».proof.Proof.Spec

set_option maxRecDepth 16384

noncomputable section

namespace Cert.ReferenceIdeal.RefValue

open Cert.ReferenceIdeal Cert.ReferenceIdeal.Gen Cert.ReferenceIdeal.Read Cert.Proof
open Idealize.ShloMosaic Idealize.ShloMosaic.TcCoe Idealize.SL.Sem

variable {F : FTy → Type} [FloatOps F]
variable (a0 a1 : (⟨S8192, .i32⟩ : BufTy).Contents (Elt F)) (a2 a3 : (⟨S3000000, .i32⟩ : BufTy).Contents (Elt F))
  (a4 : (⟨S3000000, .f32⟩ : BufTy).Contents (Elt F)) (a5 : (⟨S60000x64, .f32⟩ : BufTy).Contents (Elt F))
  (a6 : (⟨S40000x64, .f32⟩ : BufTy).Contents (Elt F)) (a7 a8 : (⟨S64x64, .f32⟩ : BufTy).Contents (Elt F))

/-- The node table x₀ and the tables after one, two and three rounds of message passing. -/
def x0 : (⟨S100000x64, .f32⟩ : BufTy).Contents (Elt F) :=
  concatenate S100000x64 0 [⟨S60000x64, a5⟩, ⟨S40000x64, a6⟩] concatenates_S60000x64_S40000x64_S100000x64_d0
def x1 : (⟨S100000x64, .f32⟩ : BufTy).Contents (Elt F) := Spec.R.layer a2 a3 a4 (x0 a5 a6)
def x2 : (⟨S100000x64, .f32⟩ : BufTy).Contents (Elt F) := Spec.R.layer a2 a3 a4 (x1 a2 a3 a4 a5 a6)
def x3 : (⟨S100000x64, .f32⟩ : BufTy).Contents (Elt F) := Spec.R.layer a2 a3 a4 (x2 a2 a3 a4 a5 a6)

/-- The mean of the four tables: their sum divided by 4. -/
def meanTable (acc : (⟨S100000x64, .f32⟩ : BufTy).Contents (Elt F)) : (⟨S100000x64, .f32⟩ : BufTy).Contents (Elt F) :=
  Host.divf acc (broadcastInDim S100000x64 ![] bcast_S_S100000x64 (constant (F := F) S_ .f32 0x40800000#32))

def mean : (⟨S100000x64, .f32⟩ : BufTy).Contents (Elt F) :=
  meanTable (addf (addf (addf (x0 a5 a6) (x1 a2 a3 a4 a5 a6)) (x2 a2 a3 a4 a5 a6)) (x3 a2 a3 a4 a5 a6))

/-- The batch's user rows of the mean table (its first 60000 rows). -/
def userRows (lo : (⟨S100000x64, .f32⟩ : BufTy).Contents (Elt F)) (u : (⟨S8192, .i32⟩ : BufTy).Contents (Elt F)) :
    (⟨S8192x64, .f32⟩ : BufTy).Contents (Elt F) :=
  Host.gather gather_S60000x64_S8192x1_S8192x64_1_0_n_n_0_1_164 (extractStridedSlice S60000x64 ![0, 0] lo slices_S100000x64_S60000x64_0_0)
    (broadcastInDim S8192x1 ![0] bcast_S8192_S8192x1_0
      (select (cmpi .slt u (broadcastInDim S8192 ![] bcast_S_S8192 (constantI S_ 32 0#32)))
        (addi u (broadcastInDim S8192 ![] bcast_S_S8192 (constantI S_ 32 60000#32))) u))

/-- The batch's item rows of the mean table (its last 40000 rows). -/
def itemRows (lo : (⟨S100000x64, .f32⟩ : BufTy).Contents (Elt F)) (it : (⟨S8192, .i32⟩ : BufTy).Contents (Elt F)) :
    (⟨S8192x64, .f32⟩ : BufTy).Contents (Elt F) :=
  Host.gather gather_S40000x64_S8192x1_S8192x64_1_0_n_n_0_1_164 (extractStridedSlice S40000x64 ![60000, 0] lo slices_S100000x64_S40000x64_60000_0)
    (broadcastInDim S8192x1 ![0] bcast_S8192_S8192x1_0
      (select (cmpi .slt it (broadcastInDim S8192 ![] bcast_S_S8192 (constantI S_ 32 0#32)))
        (addi it (broadcastInDim S8192 ![] bcast_S_S8192 (constantI S_ 32 40000#32))) it))

/-- The three rounds, as the program's stages. -/
theorem v13_eq : val_main_v13 a2 a3 a4 a5 a6 = x1 a2 a3 a4 a5 a6 := rfl
theorem v27_eq : val_main_v27 a2 a3 a4 a5 a6 = x2 a2 a3 a4 a5 a6 := rfl
theorem v41_eq : val_main_v41 a2 a3 a4 a5 a6 = x3 a2 a3 a4 a5 a6 := rfl
theorem v44_eq : val_main_v44 a2 a3 a4 a5 a6 = mean a2 a3 a4 a5 a6 := rfl

/-- THE RESULT: the last line applied to the batch's rows of the mean table and the transposed weight matrices. -/
theorem result_eq : val_main_v83 a0 a1 a2 a3 a4 a5 a6 a7 a8
    = Spec.R.tail (userRows (mean a2 a3 a4 a5 a6) a0) (itemRows (mean a2 a3 a4 a5 a6) a1)
        (transpose S64x64 [1, 0] a7 transposes_S64x64_S64x64_1_0) (transpose S64x64 [1, 0] a8 transposes_S64x64_S64x64_1_0) := rfl

end Cert.ReferenceIdeal.RefValue

end
-- ==== Proof.LibRowIndexing.lean ====
/-
  Rows picked by an integer column, read at an index.

  Three of StableHLO's indexed operations in the forms that `x[idx]` and `segment_sum` over the rows of a matrix lower to,
  each read at ONE index, for literal extents `N` (rows of the operand), `L` (number of picks) and `C` (row length):

  * `gather_rows_apply`  — the gather of whole rows of an `[N, C]` operand at an `[L, 1]` column of start indices:
    element `(l, c)` of the result is the operand at row `clamp (idx[l, 0])`, column `c`, the start index read signed and
    clamped into `[0, N − 1]`;
  * `gather_elems_apply` — the same for a flat `[N]` operand: element `l` is the operand at `clamp (idx[l, 0])`;
  * `scatter_rows_resultIdx` — where update element `(l, c)` of a row scatter into an `[N, C]` operand lands: if it lands on
    `i` at all then `idx[l, 0]`, read signed and NOT clamped, is `i`'s row and `c` is `i`'s column.
-/
import Idealize.ShloMosaic.PureOps.Ideal
import Idealize.ShloMosaic.Lib.ValueIdx

noncomputable section

namespace Idealize.ShloMosaic.RowIndexing

open Idealize.ShloMosaic Idealize.ShloMosaic.ValueIdx

/-- The start-indices index `[l, 0]` of pick `l`. -/
abbrev pickIdx {L : Nat} (l : Fin L) : (⟨2, ![L, 1]⟩ : Shape).Idx := ix2 l (⟨0, Nat.one_pos⟩ : Fin 1)

section Gather
variable {α : Type}

/-- The dimension numbers of a gather of whole rows: operand `[N, C]`, start indices `[L, 1]`, result `[L, C]`. -/
abbrev rowsDims (N L C : Nat)
    (wf : GatherDims.WF ⟨2, ![N, C]⟩ ⟨2, ![L, 1]⟩ ⟨2, ![L, C]⟩ [1] [0] [] [0] [] 1 ![1, C]) :
    GatherDims ⟨2, ![N, C]⟩ ⟨2, ![L, 1]⟩ ⟨2, ![L, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(l, c)`: the operand at row `idx[l, 0]`, read signed and clamped into `[0, N − 1]`, column `c`. -/
theorem gather_rows_apply {N L C w : Nat} (hN : 0 < N)
    (wf : GatherDims.WF ⟨2, ![N, C]⟩ ⟨2, ![L, 1]⟩ ⟨2, ![L, C]⟩ [1] [0] [] [0] [] 1 ![1, C])
    (x : (⟨2, ![N, C]⟩ : Shape).Idx → α) (idx : IVec ⟨2, ![L, 1]⟩ w) (y : (⟨2, ![L, C]⟩ : Shape).Idx) :
    Host.gather (rowsDims N L C wf) x idx y
      = x (ix2 (⟨min (idx (pickIdx (y 0))).toInt.toNat (N - 1), by omega⟩ : Fin N) (y 1)) := by
  unfold Host.gather
  congr 1
  funext a
  refine Fin.ext ?_
  match a with
  | ⟨0, _⟩ =>
    show (rowsDims N L C wf).start y idx 0 + (rowsDims N L C wf).batchCoord y 0 + (rowsDims N L C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N L C wf).startIndexMap from List.mem_singleton.mpr rfl)]
    have hsi : (rowsDims N L C wf).siIdx y ⟨List.idxOf (0 : Fin 2) (rowsDims N L C wf).startIndexMap,
        List.idxOf_lt_length_iff.2 (List.mem_singleton.mpr rfl)⟩ = pickIdx (y 0) := by
      funext b; refine Fin.ext ?_
      match b with
      | ⟨0, _⟩ => rfl
      | ⟨1, _⟩ => rfl
    rw [hsi]
    rfl
  | ⟨1, _⟩ =>
    show (rowsDims N L C wf).start y idx 1 + (rowsDims N L C wf).batchCoord y 1 + (rowsDims N L C wf).offCoord y 1 = (y 1).val
    rw [GatherDims.batchCoord_eq_zero _ _ _ List.not_mem_nil]
    have hs : (rowsDims N L C wf).start y idx 1 = 0 := by
      unfold GatherDims.start
      exact dif_neg (show (1 : Fin 2) ∉ ([0] : List (Fin 2)) by decide)
    rw [hs]
    simp only [Nat.zero_add, Nat.add_zero]
    unfold GatherDims.offCoord
    rw [dif_pos ((GatherDims.mem_sKept (rowsDims N L C wf) 1).mpr
      ⟨(show (1 : Fin 2) ∉ ([0] : List (Fin 2)) by decide), List.not_mem_nil⟩)]
    rfl

/-- The dimension numbers of a gather of single elements: operand `[N]`, start indices `[L, 1]`, result `[L]`. -/
abbrev elemsDims (N L : Nat)
    (wf : GatherDims.WF ⟨1, ![N]⟩ ⟨2, ![L, 1]⟩ ⟨1, ![L]⟩ [] [0] [] [0] [] 1 ![1]) :
    GatherDims ⟨1, ![N]⟩ ⟨2, ![L, 1]⟩ ⟨1, ![L]⟩ where
  offsetDims := []
  collapsedSliceDims := [0]
  operandBatchingDims := []
  startIndicesBatchingDims := []
  startIndexMap := [0]
  indexVectorDim := 1
  sliceSizes := ![1]
  wf := wf

/-- THE ELEMENT GATHER READ AT `l`: the operand at `idx[l, 0]`, read signed and clamped into `[0, N − 1]`. -/
theorem gather_elems_apply {N L w : Nat} (hN : 0 < N)
    (wf : GatherDims.WF ⟨1, ![N]⟩ ⟨2, ![L, 1]⟩ ⟨1, ![L]⟩ [] [0] [] [0] [] 1 ![1])
    (x : (⟨1, ![N]⟩ : Shape).Idx → α) (idx : IVec ⟨2, ![L, 1]⟩ w) (y : (⟨1, ![L]⟩ : Shape).Idx) :
    Host.gather (elemsDims N L wf) x idx y
      = x (ix1 (⟨min (idx (pickIdx (y 0))).toInt.toNat (N - 1), by omega⟩ : Fin N)) := by
  unfold Host.gather
  congr 1
  funext a
  obtain rfl : a = 0 := Subsingleton.elim _ _
  refine Fin.ext ?_
  show (elemsDims N L wf).start y idx 0 + (elemsDims N L wf).batchCoord y 0 + (elemsDims N L wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemsDims N L wf).startIndexMap from List.mem_singleton.mpr rfl)]
  have hsi : (elemsDims N L wf).siIdx y ⟨List.idxOf (0 : Fin 1) (elemsDims N L wf).startIndexMap,
      List.idxOf_lt_length_iff.2 (List.mem_singleton.mpr rfl)⟩ = pickIdx (y 0) := by
    funext b; refine Fin.ext ?_
    match b with
    | ⟨0, _⟩ => rfl
    | ⟨1, _⟩ => rfl
  rw [hsi]
  rfl

end Gather

section Scatter

/-- The dimension numbers of a scatter of whole rows: operand `[N, C]`, scatter indices `[L, 1]`, updates `[L, C]`. -/
abbrev rowsScatter (N L C : Nat)
    (wf : ScatterDims.WF ⟨2, ![N, C]⟩ ⟨2, ![L, 1]⟩ ⟨2, ![L, C]⟩ [1] [0] [0] 1) :
    ScatterDims ⟨2, ![N, C]⟩ ⟨2, ![L, 1]⟩ ⟨2, ![L, C]⟩ where
  updateWindowDims := [1]
  insertedWindowDims := [0]
  scatterDimsToOperandDims := [0]
  indexVectorDim := 1
  wf := wf

/-- WHERE AN UPDATE ELEMENT LANDS: if update element `(l, c)` lands on `i`, then `idx[l, 0]` read signed is `i`'s row and
    `c` is `i`'s column. -/
theorem scatter_rows_resultIdx {N L C w : Nat}
    (wf : ScatterDims.WF ⟨2, ![N, C]⟩ ⟨2, ![L, 1]⟩ ⟨2, ![L, C]⟩ [1] [0] [0] 1)
    (idx : IVec ⟨2, ![L, 1]⟩ w) (j : (⟨2, ![L, C]⟩ : Shape).Idx) (i : (⟨2, ![N, C]⟩ : Shape).Idx)
    (h : (rowsScatter N L C wf).resultIdx? j idx = some i) :
    (idx (pickIdx (j 0))).toInt = ((i 0).val : Int) ∧ (j 1).val = (i 1).val := by
  have s0 : (rowsScatter N L C wf).start j idx 0 = (idx (pickIdx (j 0))).toInt := by
    unfold ScatterDims.start
    rw [dif_pos (show (0 : Fin 2) ∈ (rowsScatter N L C wf).scatterDimsToOperandDims from List.mem_singleton.mpr rfl)]
    have hsi : (rowsScatter N L C wf).siIdx j ⟨List.idxOf (0 : Fin 2) (rowsScatter N L C wf).scatterDimsToOperandDims,
        List.idxOf_lt_length_iff.2 (List.mem_singleton.mpr rfl)⟩ = pickIdx (j 0) := by
      funext b; refine Fin.ext ?_
      match b with
      | ⟨0, _⟩ => rfl
      | ⟨1, _⟩ => rfl
    rw [hsi]
    rfl
  have k0 : (0 : Fin 2) ∉ (rowsScatter N L C wf).sKept := by
    simp [ScatterDims.sKept, Shape.kept, List.mem_filter, List.mem_finRange]
  have k1 : (1 : Fin 2) ∈ (rowsScatter N L C wf).sKept := by
    simp [ScatterDims.sKept, Shape.kept, List.mem_filter, List.mem_finRange]
  have w0 : (rowsScatter N L C wf).window j 0 = 0 := by
    unfold ScatterDims.window
    exact dif_neg k0
  have s1 : (rowsScatter N L C wf).start j idx 1 = 0 := by
    unfold ScatterDims.start
    exact dif_neg (show (1 : Fin 2) ∉ ([0] : List (Fin 2)) by decide)
  have w1 : (rowsScatter N L C wf).window j 1 = (j 1).val := by
    unfold ScatterDims.window
    rw [dif_pos k1]
    rfl
  unfold ScatterDims.resultIdx? at h
  split at h
  · rename_i hall
    have hi := Option.some.inj h
    have h0 := hall 0
    have h1 := hall 1
    have e0 : (i 0).val = ((rowsScatter N L C wf).start j idx 0 + ((rowsScatter N L C wf).window j 0 : Int)).toNat := by
      rw [← hi]
    have e1 : (i 1).val = ((rowsScatter N L C wf).start j idx 1 + ((rowsScatter N L C wf).window j 1 : Int)).toNat := by
      rw [← hi]
    rw [s0, w0] at e0 h0
    rw [s1, w1] at e1 h1
    constructor <;> omega
  · exact absurd h (by simp)

end Scatter

end Idealize.ShloMosaic.RowIndexing

end
-- ==== Proof.LayerLaw.Rows.lean ====
/-
  Rows scattered and added by an integer column, read at an index; a vector padded at its end, read at an index; a column
  and a row broadcast, read at an index; a sum over a range whose tail vanishes.

  * `scatter_rows_lands` — the converse of `RowIndexing.scatter_rows_resultIdx`: update element `(l, c)` of a row scatter
    into an `[N, C]` operand lands on `i` as soon as `idx[l, 0]`, read signed, is `i`'s row and `c` is `i`'s column;
  * `scatterAdd_rows_apply` — the accumulating row scatter read at `i = (n, c)`: the operand there plus the sum, over the
    picks `l` whose index read signed is `n`, of update element `(l, c)`;
  * `gather_rows_read` — the row gather read at `(l, c)`: the operand at the clamped row `idx[l, 0]`, column `c`;
  * `pad_high_apply` — a vector of `n` entries padded at its end: entry `e` is the operand's below `n` and the padding
    value from `n` on;
  * `bcast_col_apply`, `bcast_row_apply`, `bcast_scalar_apply` — a vector as a column, a column repeated along the rows,
    and a scalar repeated everywhere, each read at an index;
  * `sum_eq_sum_of_tail_zero` — a sum over `L = n + m` terms whose last `m` vanish is the sum of the first `n`.
-/
import proofs.«104805_j50294067036541_2_alg».proof.Proof.LibRowIndexing
import Idealize.ShloMosaic.Lib.KernelVsHost
import Idealize.ShloMosaic.Lib.Pipeline.Value

noncomputable section

open scoped BigOperators

namespace Cert.Proof.LayerLaw

open Idealize.ShloMosaic Idealize.ShloMosaic.ValueIdx Idealize.ShloMosaic.RowIndexing

section Scatter

/-- WHERE AN UPDATE ELEMENT LANDS, the converse: if `idx[l, 0]` read signed is `i`'s row and `c` is `i`'s column, update
    element `(l, c)` lands on `i`. -/
theorem scatter_rows_lands {N L C w : Nat}
    (wf : ScatterDims.WF ⟨2, ![N, C]⟩ ⟨2, ![L, 1]⟩ ⟨2, ![L, C]⟩ [1] [0] [0] 1)
    (idx : IVec ⟨2, ![L, 1]⟩ w) (j : (⟨2, ![L, C]⟩ : Shape).Idx) (i : (⟨2, ![N, C]⟩ : Shape).Idx)
    (h0 : (idx (pickIdx (j 0))).toInt = ((i 0).val : Int)) (h1 : (j 1).val = (i 1).val) :
    (rowsScatter N L C wf).resultIdx? j idx = some i := by
  have s0 : (rowsScatter N L C wf).start j idx 0 = (idx (pickIdx (j 0))).toInt := by
    unfold ScatterDims.start
    rw [dif_pos (show (0 : Fin 2) ∈ (rowsScatter N L C wf).scatterDimsToOperandDims from List.mem_singleton.mpr rfl)]
    have hsi : (rowsScatter N L C wf).siIdx j ⟨List.idxOf (0 : Fin 2) (rowsScatter N L C wf).scatterDimsToOperandDims,
        List.idxOf_lt_length_iff.2 (List.mem_singleton.mpr rfl)⟩ = pickIdx (j 0) := by
      funext b; refine Fin.ext ?_
      match b with
      | ⟨0, _⟩ => rfl
      | ⟨1, _⟩ => rfl
    rw [hsi]
    rfl
  have k0 : (0 : Fin 2) ∉ (rowsScatter N L C wf).sKept := by
    simp [ScatterDims.sKept, Shape.kept, List.mem_filter, List.mem_finRange]
  have k1 : (1 : Fin 2) ∈ (rowsScatter N L C wf).sKept := by
    simp [ScatterDims.sKept, Shape.kept, List.mem_filter, List.mem_finRange]
  have w0 : (rowsScatter N L C wf).window j 0 = 0 := by
    unfold ScatterDims.window
    exact dif_neg k0
  have s1 : (rowsScatter N L C wf).start j idx 1 = 0 := by
    unfold ScatterDims.start
    exact dif_neg (show (1 : Fin 2) ∉ ([0] : List (Fin 2)) by decide)
  have w1 : (rowsScatter N L C wf).window j 1 = (j 1).val := by
    unfold ScatterDims.window
    rw [dif_pos k1]
    rfl
  have hi0 : (i 0).val < N := idx2_lt0 i
  have hi1 : (i 1).val < C := idx2_lt1 i
  unfold ScatterDims.resultIdx?
  split
  · refine congrArg some (funext fun a => Fin.ext ?_)
    match a with
    | ⟨0, _⟩ =>
      show ((rowsScatter N L C wf).start j idx 0 + ((rowsScatter N L C wf).window j 0 : Int)).toNat = (i 0).val
      rw [s0, w0, h0]; omega
    | ⟨1, _⟩ =>
      show ((rowsScatter N L C wf).start j idx 1 + ((rowsScatter N L C wf).window j 1 : Int)).toNat = (i 1).val
      rw [s1, w1, h1]; omega
  · rename_i hnot
    refine absurd (fun a => ?_) hnot
    match a with
    | ⟨0, _⟩ =>
      show 0 ≤ (rowsScatter N L C wf).start j idx 0 + ((rowsScatter N L C wf).window j 0 : Int)
        ∧ (rowsScatter N L C wf).start j idx 0 + ((rowsScatter N L C wf).window j 0 : Int) < (N : Int)
      rw [s0, w0, h0]; omega
    | ⟨1, _⟩ =>
      show 0 ≤ (rowsScatter N L C wf).start j idx 1 + ((rowsScatter N L C wf).window j 1 : Int)
        ∧ (rowsScatter N L C wf).start j idx 1 + ((rowsScatter N L C wf).window j 1 : Int) < (C : Int)
      rw [s1, w1, h1]; omega

/-- THE ACCUMULATING ROW SCATTER READ AT `i = (n, c)`: the operand at `i` plus the sum, over the picks `l` whose index
    `idx[l, 0]` read signed is `n`, of update element `(l, c)`. -/
theorem scatterAdd_rows_apply {N L C w : Nat}
    (wf : ScatterDims.WF ⟨2, ![N, C]⟩ ⟨2, ![L, 1]⟩ ⟨2, ![L, C]⟩ [1] [0] [0] 1)
    (x0 : (⟨2, ![N, C]⟩ : Shape).Idx → EReal) (idx : IVec ⟨2, ![L, 1]⟩ w)
    (upd : (⟨2, ![L, C]⟩ : Shape).Idx → EReal) (n : Fin N) (c : Fin C) :
    Ideal.hostScatterAdd (rowsScatter N L C wf) x0 idx upd (ix2 n c)
      = x0 (ix2 n c) + ∑ l : Fin L, if (idx (pickIdx l)).toInt = (n.val : Int) then upd (ix2 l c) else 0 := by
  unfold Ideal.hostScatterAdd
  congr 1
  rw [Finset.sum_filter, sum_idx2]
  refine Finset.sum_congr rfl fun l _ => ?_
  by_cases hl : (idx (pickIdx l)).toInt = (n.val : Int)
  · rw [if_pos hl, Finset.sum_eq_single c]
    · rw [if_pos (scatter_rows_lands wf idx (ix2 l c) (ix2 n c) hl rfl)]
    · intro c' _ hc
      rw [if_neg]
      intro h
      exact hc (Fin.ext (scatter_rows_resultIdx wf idx (ix2 l c') (ix2 n c) h).2)
    · intro h
      exact absurd (Finset.mem_univ _) h
  · rw [if_neg hl]
    refine Finset.sum_eq_zero fun c' _ => ?_
    rw [if_neg]
    intro h
    exact hl (scatter_rows_resultIdx wf idx (ix2 l c') (ix2 n c) h).1

/-- The same for the host's accumulating float scatter at dimension numbers `D` that are the row scatter's. -/
theorem hostScatterAdd_rows_apply {N L C w : Nat} {φ : FTy}
    (wf : ScatterDims.WF ⟨2, ![N, C]⟩ ⟨2, ![L, 1]⟩ ⟨2, ![L, C]⟩ [1] [0] [0] 1)
    (D : ScatterDims ⟨2, ![N, C]⟩ ⟨2, ![L, 1]⟩ ⟨2, ![L, C]⟩) (hD : D = rowsScatter N L C wf)
    (x0 : FVec Ideal ⟨2, ![N, C]⟩ φ) (idx : IVec ⟨2, ![L, 1]⟩ w) (upd : FVec Ideal ⟨2, ![L, C]⟩ φ) (n : Fin N) (c : Fin C) :
    Host.scatterAdd (F := Ideal) D x0 idx upd (ix2 n c)
      = x0 (ix2 n c) + ∑ l : Fin L, if (idx (pickIdx l)).toInt = (n.val : Int) then upd (ix2 l c) else 0 := by
  subst hD
  exact scatterAdd_rows_apply wf x0 idx upd n c

end Scatter

section Gather
variable {α : Type}

/-- A start index read signed and clamped into the rows `[0, N − 1]` of the operand. -/
def clampRow {w : Nat} (N : Nat) (hN : 0 < N) (b : BitVec w) : Fin N := ⟨min b.toInt.toNat (N - 1), by omega⟩

/-- THE ROW GATHER READ AT `(l, c)`, by coordinates: the operand at the clamped row `idx[l, 0]`, column `c`. -/
theorem gather_rows_read {N L C w : Nat} (hN : 0 < N)
    (wf : GatherDims.WF ⟨2, ![N, C]⟩ ⟨2, ![L, 1]⟩ ⟨2, ![L, C]⟩ [1] [0] [] [0] [] 1 ![1, C])
    (x : (⟨2, ![N, C]⟩ : Shape).Idx → α) (idx : IVec ⟨2, ![L, 1]⟩ w) (l : Fin L) (c : Fin C) :
    Host.gather (rowsDims N L C wf) x idx (ix2 l c) = x (ix2 (clampRow N hN (idx (pickIdx l))) c) :=
  (gather_rows_apply hN wf x idx (ix2 l c)).trans rfl

/-- The same at dimension numbers `D` that are the row gather's. -/
theorem hostGather_rows_read {N L C w : Nat} (hN : 0 < N)
    (wf : GatherDims.WF ⟨2, ![N, C]⟩ ⟨2, ![L, 1]⟩ ⟨2, ![L, C]⟩ [1] [0] [] [0] [] 1 ![1, C])
    (D : GatherDims ⟨2, ![N, C]⟩ ⟨2, ![L, 1]⟩ ⟨2, ![L, C]⟩) (hD : D = rowsDims N L C wf)
    (x : (⟨2, ![N, C]⟩ : Shape).Idx → α) (idx : IVec ⟨2, ![L, 1]⟩ w) (l : Fin L) (c : Fin C) :
    Host.gather D x idx (ix2 l c) = x (ix2 (clampRow N hN (idx (pickIdx l))) c) := by
  subst hD
  exact gather_rows_read hN wf x idx l c

end Gather

section Reads
variable {α : Type}

/-- A VECTOR PADDED AT ITS END, read at `e`: the operand's entry below `n`, the padding value from `n` on. -/
theorem pad_high_apply {n p L : Nat} (x : (⟨1, ![n]⟩ : Shape).Idx → α) {u : Shape} (v : u.Idx → α)
    (hp : (⟨1, ![n]⟩ : Shape).Pads (![0] : Fin 1 → Nat) ![p] ![0] ⟨1, ![L]⟩) (hu : 0 < u.numel) (e : Fin L) :
    pad ⟨1, ![L]⟩ ![0] ![p] ![0] x v hp hu (ix1 e)
      = if h : e.val < n then x (ix1 (⟨e.val, h⟩ : Fin n)) else v (Shape.Idx.first hu) := by
  by_cases h : e.val < n
  · rw [dif_pos h]
    exact pad_apply_of_inside _ _ _ x v hp hu _ (ix1 (⟨e.val, h⟩ : Fin n)) (by
      intro a
      have ha : a = 0 := Subsingleton.elim _ _
      subst ha
      show e.val = 0 + e.val * (0 + 1); omega)
  · rw [dif_neg h]
    exact pad_apply_of_not_inside _ _ _ x v hp hu _ (0 : Fin 1) (by
      intro hin
      have e3 : (e.val - 0) / (0 + 1) < n := hin.2.2
      rw [Nat.sub_zero, Nat.div_one] at e3
      exact h e3)

/-- A vector as a column, read at `(e, 0)`: the vector's entry `e`. -/
theorem bcast_col_apply {L : Nat} (h : (⟨1, ![L]⟩ : Shape).BroadcastsInDim ⟨2, ![L, 1]⟩ (![0] : Fin 1 → Fin 2))
    (x : (⟨1, ![L]⟩ : Shape).Idx → α) (e : Fin L) (z : Fin 1) :
    broadcastInDim ⟨2, ![L, 1]⟩ ![0] h x (ix2 e z) = x (ix1 e) := by
  refine broadcastInDim_apply _ h x _ (ix1 e) ?_
  intro a
  have ha : a = 0 := Subsingleton.elim _ _
  subst ha
  show e.val = if L = 1 then 0 else e.val
  have := e.isLt
  split <;> omega

/-- A column repeated along the rows, read at `(e, c)`: the column's entry `(e, 0)`. -/
theorem bcast_row_apply {L C : Nat} (h : (⟨2, ![L, 1]⟩ : Shape).BroadcastsInDim ⟨2, ![L, C]⟩ (![0, 1] : Fin 2 → Fin 2))
    (x : (⟨2, ![L, 1]⟩ : Shape).Idx → α) (e : Fin L) (c : Fin C) :
    broadcastInDim ⟨2, ![L, C]⟩ ![0, 1] h x (ix2 e c) = x (ix2 e (0 : Fin 1)) := by
  refine broadcastInDim_apply _ h x _ (ix2 e (0 : Fin 1)) ?_
  intro a
  match a with
  | ⟨0, _⟩ =>
    show e.val = if L = 1 then 0 else e.val
    have := e.isLt
    split <;> omega
  | ⟨1, _⟩ =>
    exact (if_pos rfl).symm

/-- A scalar repeated everywhere, read anywhere: the scalar. -/
theorem bcast_scalar_apply {t : Shape} (dims : Fin 0 → Fin t.rank) (h : (⟨0, ![]⟩ : Shape).BroadcastsInDim t dims)
    (x : (⟨0, ![]⟩ : Shape).Idx → α) (j : t.Idx) :
    broadcastInDim t dims h x j = x ix0 :=
  broadcastInDim_apply dims h x j ix0 (fun a => a.elim0)

end Reads

/-- A sum over `L = n + m` terms whose terms from `n` on vanish is the sum of the first `n` terms. -/
theorem sum_eq_sum_of_tail_zero {M : Type*} [AddCommMonoid M] {n m L : Nat} (hL : n + m = L) (f : Fin L → M) (g : Fin n → M)
    (hfg : ∀ e : Fin n, f ⟨e.val, by have := e.isLt; omega⟩ = g e)
    (hz : ∀ e : Fin L, n ≤ e.val → f e = 0) : ∑ e, f e = ∑ e, g e := by
  subst hL
  rw [Fin.sum_univ_add]
  have h2 : ∑ e : Fin m, f (Fin.natAdd n e) = 0 :=
    Finset.sum_eq_zero fun e _ => hz _ (by show n ≤ n + e.val; omega)
  rw [h2, add_zero]
  exact Finset.sum_congr rfl fun e _ => hfg e

end Cert.Proof.LayerLaw

end
-- ==== Proof.LayerLaw.lean ====
/-
  One round of message passing is the same table in both programs.

  A round builds, from a table `x` of 100000 rows of 64 features, the table whose entry `(n, c)` is the sum, over the edges
  `e` whose destination read signed is `n`, of `val e · x[row (src e), c]`, where `row` adds 100000 to a negative source
  and clamps the result into the table's rows. The reference sums over the 3,000,000 edges as given; the kernel sums over
  3,006,464 edges, the three edge arrays padded at their ends with zeros. Below 3,000,000 a padded array reads the given
  one, so the terms agree; from 3,000,000 on the padded weight is `0` and `0 · y = 0` for every extended real `y`, so the
  term vanishes whatever row it lands on. Hence the two sums are equal.

  * `K_layer_apply` / `R_layer_apply` — each program's round read at `(n, c)` as that sum;
  * `K_padI_apply` / `K_padF_apply` — the padded edge arrays read at an edge;
  * `layer_eq` — the two rounds are the same table.
-/
import proofs.«104805_j50294067036541_2_alg».proof.Proof.Spec
import proofs.«104805_j50294067036541_2_alg».proof.Proof.LayerLaw.Rows
import Idealize.ShloMosaic.PureOps.Ideal.Laws

noncomputable section

open scoped BigOperators

namespace Cert.Proof.LayerLaw

open Idealize.ShloMosaic Idealize.ShloMosaic.ValueIdx Idealize.ShloMosaic.RowIndexing
open Cert.Proof.Spec

/-- A source row as a start index: a negative one counts from the end of the 100000 rows. -/
def wrapRow (b : BitVec 32) : BitVec 32 := Scalar.select (IntOp.cmpi .slt b 0#32) (IntOp.addi b 100000#32) b

/-- The row of the table a source index reads: wrapped, then clamped into the table's rows. -/
def rowOf (b : BitVec 32) : Fin 100000 := clampRow 100000 (by decide) (wrapRow b)

/-! ## The kernel's round at an index -/
section Kernel
open Cert.KernelIdeal Cert.KernelIdeal.Gen

/-- The kernel's column of start indices at edge `l`: the wrapped source of `l`. -/
theorem K_srcCol_apply (s : (⟨S3006464, .i32⟩ : BufTy).Contents (Elt Ideal)) (l : Fin 3006464) :
    K.srcCol (F := Ideal) s (pickIdx l) = wrapRow (s (ix1 l)) := by
  unfold K.srcCol
  exact (bcast_col_apply bcast_S3006464_S3006464x1_0 _ l _).trans rfl

/-- THE KERNEL'S ROUND AT `(n, c)`: the sum over the 3,006,464 edges `l` with destination `n` of the weight of `l` times
    entry `c` of the row of `x` the source of `l` reads. -/
theorem K_layer_apply (s d : (⟨S3006464, .i32⟩ : BufTy).Contents (Elt Ideal))
    (v : (⟨S3006464, .f32⟩ : BufTy).Contents (Elt Ideal)) (x : (⟨S100000x64, .f32⟩ : BufTy).Contents (Elt Ideal))
    (n : Fin 100000) (c : Fin 64) :
    K.layer (F := Ideal) s d v x (ix2 n c)
      = Ideal.ofBits .f32 0x00000000#32
        + ∑ l : Fin 3006464, if (d (ix1 l)).toInt = (n.val : Int) then v (ix1 l) * x (ix2 (rowOf (s (ix1 l))) c) else 0 := by
  unfold K.layer K.scat
  refine (hostScatterAdd_rows_apply (N := 100000) (L := 3006464) (C := 64) scatter_S100000x64_S3006464x1_S3006464x64_1_0_0_1_wf
    _ rfl _ _ _ n c).trans ?_
  refine congrArg (fun t => Ideal.ofBits .f32 0x00000000#32 + t) (Finset.sum_congr rfl fun l _ => ?_)
  have hcond : broadcastInDim S3006464x1 ![0] bcast_S3006464_S3006464x1_0 d (pickIdx l) = d (ix1 l) :=
    bcast_col_apply bcast_S3006464_S3006464x1_0 d l _
  have hV : K.valCol v (ix2 l (0 : Fin 1)) = v (ix1 l) := bcast_col_apply bcast_S3006464_S3006464x1_0 v l _
  have hG : K.gath x s (ix2 l c) = x (ix2 (rowOf (s (ix1 l))) c) := by
    unfold K.gath
    refine (hostGather_rows_read (N := 100000) (L := 3006464) (C := 64) (by decide)
      gather_S100000x64_S3006464x1_S3006464x64_1_0_n_n_0_1_164_wf _ rfl x (K.srcCol s) l c).trans ?_
    rw [K_srcCol_apply]
    rfl
  have hval : K.scaleRows (K.valCol v) (K.gath x s) (ix2 l c) = v (ix1 l) * x (ix2 (rowOf (s (ix1 l))) c) := by
    show K.valCol v (ix2 l (0 : Fin 1)) * K.gath x s (ix2 l c) = _
    rw [hV, hG]
  rw [hcond, hval]

/-- An integer edge array padded at its end, read at edge `l`: the given entry below 3,000,000, `0` from there on. -/
theorem K_padI_apply (s : (⟨S3000000, .i32⟩ : BufTy).Contents (Elt Ideal)) (l : Fin 3006464) :
    K.padI (F := Ideal) s (ix1 l) = if h : l.val < 3000000 then s (ix1 (⟨l.val, h⟩ : Fin 3000000)) else 0#32 := by
  unfold K.padI
  exact (pad_high_apply s _ pads_S3000000_S3006464_064640 h_S_ l).trans rfl

/-- The edge weights padded at their end, read at edge `l`: the given weight below 3,000,000, `0` from there on. -/
theorem K_padF_apply (v : (⟨S3000000, .f32⟩ : BufTy).Contents (Elt Ideal)) (l : Fin 3006464) :
    K.padF (F := Ideal) v (ix1 l) = if h : l.val < 3000000 then v (ix1 (⟨l.val, h⟩ : Fin 3000000)) else 0 := by
  unfold K.padF
  refine (pad_high_apply v _ pads_S3000000_S3006464_064640 h_S_ l).trans ?_
  by_cases h : l.val < 3000000
  · rw [dif_pos h, dif_pos h]
  · rw [dif_neg h, dif_neg h]
    exact Ideal.ofBits_zero_f32

end Kernel

/-! ## The reference's round at an index -/
section Reference
open Cert.ReferenceIdeal Cert.ReferenceIdeal.Gen

/-- The reference's column of start indices at edge `e`: the wrapped source of `e`. -/
theorem R_srcCol_apply (s : (⟨S3000000, .i32⟩ : BufTy).Contents (Elt Ideal)) (e : Fin 3000000) :
    R.srcCol (F := Ideal) s (pickIdx e) = wrapRow (s (ix1 e)) := by
  unfold R.srcCol
  exact (bcast_col_apply bcast_S3000000_S3000000x1_0 _ e _).trans rfl

/-- THE REFERENCE'S ROUND AT `(n, c)`: the sum over the 3,000,000 edges `e` with destination `n` of the weight of `e` times
    entry `c` of the row of `x` the source of `e` reads. -/
theorem R_layer_apply (s d : (⟨S3000000, .i32⟩ : BufTy).Contents (Elt Ideal))
    (v : (⟨S3000000, .f32⟩ : BufTy).Contents (Elt Ideal)) (x : (⟨S100000x64, .f32⟩ : BufTy).Contents (Elt Ideal))
    (n : Fin 100000) (c : Fin 64) :
    R.layer (F := Ideal) s d v x (ix2 n c)
      = Ideal.ofBits .f32 0x00000000#32
        + ∑ e : Fin 3000000, if (d (ix1 e)).toInt = (n.val : Int) then v (ix1 e) * x (ix2 (rowOf (s (ix1 e))) c) else 0 := by
  unfold R.layer
  refine (hostScatterAdd_rows_apply (N := 100000) (L := 3000000) (C := 64) scatter_S100000x64_S3000000x1_S3000000x64_1_0_0_1_wf
    _ rfl _ _ _ n c).trans ?_
  refine congrArg (fun t => Ideal.ofBits .f32 0x00000000#32 + t) (Finset.sum_congr rfl fun e _ => ?_)
  have hcond : broadcastInDim S3000000x1 ![0] bcast_S3000000_S3000000x1_0 d (pickIdx e) = d (ix1 e) :=
    bcast_col_apply bcast_S3000000_S3000000x1_0 d e _
  have hV : broadcastInDim S3000000x64 ![0, 1] bcast_S3000000x1_S3000000x64_0_1
      (broadcastInDim S3000000x1 ![0] bcast_S3000000_S3000000x1_0 v) (ix2 e c) = v (ix1 e) :=
    (bcast_row_apply bcast_S3000000x1_S3000000x64_0_1 _ e c).trans (bcast_col_apply bcast_S3000000_S3000000x1_0 v e _)
  have hG : Host.gather gather_S100000x64_S3000000x1_S3000000x64_1_0_n_n_0_1_164 x (R.srcCol s) (ix2 e c)
      = x (ix2 (rowOf (s (ix1 e))) c) := by
    refine (hostGather_rows_read (N := 100000) (L := 3000000) (C := 64) (by decide)
      gather_S100000x64_S3000000x1_S3000000x64_1_0_n_n_0_1_164_wf _ rfl x (R.srcCol s) e c).trans ?_
    rw [R_srcCol_apply]
    rfl
  have hval : R.msgs s v x (ix2 e c) = v (ix1 e) * x (ix2 (rowOf (s (ix1 e))) c) := by
    show broadcastInDim S3000000x64 ![0, 1] bcast_S3000000x1_S3000000x64_0_1
        (broadcastInDim S3000000x1 ![0] bcast_S3000000_S3000000x1_0 v) (ix2 e c)
      * Host.gather gather_S100000x64_S3000000x1_S3000000x64_1_0_n_n_0_1_164 x (R.srcCol s) (ix2 e c) = _
    rw [hV, hG]
  rw [hcond, hval]

end Reference

/-! ## The two rounds are the same table -/

/-- ONE ROUND OF MESSAGE PASSING IS THE SAME TABLE IN BOTH PROGRAMS: the kernel's round over the padded edge arrays is the
    reference's round over the edge arrays as given. -/
theorem layer_eq (s d : (⟨Cert.ReferenceIdeal.S3000000, .i32⟩ : BufTy).Contents (Elt Ideal))
    (v : (⟨Cert.ReferenceIdeal.S3000000, .f32⟩ : BufTy).Contents (Elt Ideal))
    (x : (⟨Cert.ReferenceIdeal.S100000x64, .f32⟩ : BufTy).Contents (Elt Ideal)) :
    Cert.Proof.Spec.K.layer (F := Ideal) (Cert.Proof.Spec.K.padI s) (Cert.Proof.Spec.K.padI d) (Cert.Proof.Spec.K.padF v) x
      = Cert.Proof.Spec.R.layer (F := Ideal) s d v x := by
  funext i
  obtain ⟨n, c, rfl⟩ : ∃ (n : Fin 100000) (c : Fin 64), i = ix2 n c := ⟨i 0, i 1, eq_ix2 i⟩
  refine (K_layer_apply (K.padI s) (K.padI d) (K.padF v) x n c).trans ((R_layer_apply s d v x n c).trans ?_).symm
  refine congrArg (fun t => Ideal.ofBits .f32 0x00000000#32 + t) ?_
  refine (sum_eq_sum_of_tail_zero (n := 3000000) (m := 6464) (L := 3006464) rfl _ _ (fun e => ?_) (fun l hl => ?_)).symm
  · have he : (⟨e.val, by have := e.isLt; omega⟩ : Fin 3006464).val < 3000000 := e.isLt
    rw [K_padI_apply s, K_padI_apply d, K_padF_apply v, dif_pos he, dif_pos he, dif_pos he]
  · have hl' : ¬ l.val < 3000000 := by omega
    rw [K_padF_apply v, dif_neg hl', zero_mul, ite_self]

end Cert.Proof.LayerLaw

end
-- ==== Proof.MeanEq.lean ====
/-
  The two programs' mean tables are one table.

  Round by round, message passing over the zero-padded edge arrays gives the table that message passing over the edge
  arrays as given gives: a padded edge carries the weight 0, so its message is 0 times a row of the table, which is 0
  whatever the row holds, and adding it to the row it lands on changes nothing. Hence x₁, x₂, x₃, their sum with x₀, and its
  quotient by 4 agree, and so do the rows of it that the batch reads.
-/
import proofs.«104805_j50294067036541_2_alg».proof.Proof.Chain
import proofs.«104805_j50294067036541_2_alg».proof.Proof.RefValue
import proofs.«104805_j50294067036541_2_alg».proof.Proof.LayerLaw

set_option maxRecDepth 16384

noncomputable section

namespace Cert.Proof.MeanEq

open Cert.Proof
open Idealize.ShloMosaic Idealize.ShloMosaic.TcCoe Idealize.SL.Sem

variable (m : (ℓ : Loc Cert.KernelIdeal.nD Cert.KernelIdeal.τ Cert.KernelIdeal.sig) → Buf (Elt Ideal) ℓ) (c : Dev Cert.KernelIdeal.nD)

/-- The kernel program's mean table is the reference's, of the same arguments. -/
theorem mean_eq : Cert.KernelIdeal.Chain.mean m c
    = Cert.ReferenceIdeal.RefValue.mean (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  unfold Cert.KernelIdeal.Chain.mean Cert.KernelIdeal.Chain.x3 Cert.KernelIdeal.Chain.x2 Cert.KernelIdeal.Chain.x1 Cert.KernelIdeal.HostA.srcP Cert.KernelIdeal.HostA.dstP Cert.KernelIdeal.HostA.valP
  simp only [LayerLaw.layer_eq]
  rfl

/-- So the batch's user rows agree, -/
theorem userRows_eq : Cert.KernelIdeal.HostB.userRows (Cert.KernelIdeal.Chain.mean m c) (m ((c.tc : Thread Cert.KernelIdeal.nD Cert.KernelIdeal.τ).loc Cert.KernelIdeal.main_arg0))
    = Cert.ReferenceIdeal.RefValue.userRows (Cert.ReferenceIdeal.RefValue.mean (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg0)) := by
  rw [mean_eq]
  rfl

/-- and its item rows. -/
theorem itemRows_eq : Cert.KernelIdeal.HostB.itemRows (Cert.KernelIdeal.Chain.mean m c) (m ((c.tc : Thread Cert.KernelIdeal.nD Cert.KernelIdeal.τ).loc Cert.KernelIdeal.main_arg1))
    = Cert.ReferenceIdeal.RefValue.itemRows (Cert.ReferenceIdeal.RefValue.mean (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg1)) := by
  rw [mean_eq]
  rfl

end Cert.Proof.MeanEq

end
-- ==== Proof.Tail.Rows.lean ====
/-
  One row of the last stage: the operations that are not pointwise, read at an index.

  The last stage works on two 8192 x 64 arrays P = U Wu and Q = I Wi. Every operation in it that is not pointwise
  stays inside one row b: a row reduction at b is a sum or a maximum over the 64 entries (b, d) of that row. This
  module states the four row reductions of the stage once, over the literal shapes, with the row b as an explicit
  coordinate: the kernel's sum and maximum, and the host's.
-/
import Idealize.ShloMosaic.PureOps.Ideal.Laws
import Idealize.ShloMosaic.Lib.Pipeline.Value
import Idealize.ShloMosaic.Lib.ValueIdx

noncomputable section

namespace Cert.Proof.Tail

open Idealize.ShloMosaic Idealize.ShloMosaic.ValueIdx

/-- The 8192 x 64 arrays of the stage. -/
abbrev SM : Shape := ⟨2, ![8192, 64]⟩
/-- The 64 x 64 projection weights. -/
abbrev SW : Shape := ⟨2, ![64, 64]⟩
/-- One value per row. -/
abbrev SV : Shape := ⟨1, ![8192]⟩
/-- One value per row, as a column. -/
abbrev SC : Shape := ⟨2, ![8192, 1]⟩
/-- A scalar. -/
abbrev S0 : Shape := ⟨0, ![]⟩

/-! ## Row reductions -/

/-- The reduced index b with feature k put back is (b, k). -/
theorem lift_row (h : SM.Reduces [1] SV) (b : Fin 8192) (k : Fin (SM.size 1)) :
    h.lift (ix1 b) k = ix2 b (⟨k.val, k.isLt⟩ : Fin 64) := by
  funext c; apply Fin.ext
  fin_cases c <;> rfl

/-- A kernel's sum along the features, at row b: the sum of the row's 64 entries. -/
theorem mredAdd_row (v : FVec Ideal SM .f32) (acc : BitVec 32) (h : SM.Reduces [1] SV) (hφ : FKind.Formats .f32)
    (hacc : acc = FKind.add.neutral .f32 hφ) (b : Fin 8192) :
    multiReduction (F := Ideal) .add [1] SV v acc h hφ hacc (ix1 b) = ∑ d : Fin 64, v (ix2 b d) := by
  refine (Ideal.multiReduction_add_single v acc h hφ hacc (ix1 b)).trans ?_
  exact Finset.sum_congr rfl fun k _ => congrArg v (lift_row h b k)

/-- A kernel's maximum along the features, at row b: the fold of max from the initial value over the row's 64 entries. -/
theorem mredMax_row (v : FVec Ideal SM .f32) (acc : BitVec 32) (h : SM.Reduces [1] SV) (hφ : FKind.Formats .f32)
    (hacc : acc = FKind.maximumf.neutral .f32 hφ) (b : Fin 8192) :
    multiReduction (F := Ideal) .maximumf [1] SV v acc h hφ hacc (ix1 b)
      = (Finset.univ : Finset (Fin 64)).fold max (Ideal.ofBits .f32 acc) (fun d => v (ix2 b d)) := by
  refine (Ideal.multiReduction_maximumf_single v acc h hφ hacc (ix1 b)).trans ?_
  exact congrArg (fun f => Finset.fold max (Ideal.ofBits .f32 acc) f (Finset.univ : Finset (Fin 64)))
    (funext fun k => congrArg v (lift_row h b k))

/-- The host's maximum along the features, at row b: the same fold, from the initial value's element. -/
theorem hostMax_row (x : FVec Ideal SM .f32) (init : S0.Idx → Ideal .f32) (h' : SM.ReducesTo [1] SV) (hu : 0 < S0.numel)
    (b : Fin 8192) :
    Host.reduce FloatOps.maximumf x init h' hu (ix1 b)
      = (Finset.univ : Finset (Fin 64)).fold max (init (Shape.Idx.first hu)) (fun d => x (ix2 b d)) := by
  have h : SM.Reduces [1] SV := by decide
  refine (Host.reduce_eq_fold_single FloatOps.maximumf x init h' h hu (ix1 b)).trans ?_
  exact congrArg (fun f => Finset.fold max (init (Shape.Idx.first hu)) f (Finset.univ : Finset (Fin 64)))
    (funext fun k => congrArg x (lift_row h b k))

/-- The host's sum along the features, at row b: the initial value's element plus the sum of the row's 64 entries. -/
theorem hostAdd_row (x : FVec Ideal SM .f32) (init : S0.Idx → Ideal .f32) (h' : SM.ReducesTo [1] SV) (hu : 0 < S0.numel)
    (b : Fin 8192) :
    Host.reduceAdd x init h' hu (ix1 b) = init (Shape.Idx.first hu) + ∑ d : Fin 64, x (ix2 b d) := by
  have h : SM.Reduces [1] SV := by decide
  simp only [Host.reduceAdd, Ideal.hostReduceAdd_def]
  rw [Ideal.hostReduceAdd_single h' h]
  exact congrArg (_ + ·) (Finset.sum_congr rfl fun k _ => congrArg x (lift_row h b k))

end Cert.Proof.Tail

end
-- ==== Proof.Tail.Dot.lean ====
/-
  The two projections read at an index.

  A projection of an 8192 x 64 array A by a 64 x 64 weight W contracts A's second axis with W's first: entry (b, d) of
  the product is the 64-term sum over k of A (b, k) * W (k, d). On the extended reals the kernel's product into a zero
  accumulator and the host's product are this same sum.
-/
import Idealize.ShloMosaic.PureOps.Ideal.Laws
import Idealize.ShloMosaic.Lib.ValueIdx
import proofs.«104805_j50294067036541_2_alg».proof.Proof.Tail.Rows

noncomputable section

namespace Cert.Proof.Tail

open Idealize.ShloMosaic Idealize.ShloMosaic.ValueIdx

/-- The dimension numbers of the projection: rows x contraction times contraction x columns. -/
def dotMW : DotDims SM SW SM where
  lhsContracting := [1]
  rhsContracting := [0]
  lhsNonContracting := [0]
  rhsNonContracting := [1]
  lhsBatch := []
  rhsBatch := []
  wf := by decide

theorem dotMW_lhs0 (i : SM.Idx) (q : dotMW.contr.Idx) : (dotMW.lhsIdx i q 0).val = (i 0).val := by
  unfold DotDims.lhsIdx
  rw [dif_neg (show ¬(0 : Fin SM.rank) ∈ dotMW.lhsBatch by decide), dif_pos (show (0 : Fin SM.rank) ∈ dotMW.lhsNonContracting by decide)]
  rfl
theorem dotMW_lhs1 (i : SM.Idx) (q : dotMW.contr.Idx) : (dotMW.lhsIdx i q 1).val = (q ⟨0, by decide⟩).val :=
  dotMW.lhsIdx_val_of_single rfl i q
theorem dotMW_rhs0 (i : SM.Idx) (q : dotMW.contr.Idx) : (dotMW.rhsIdx i q 0).val = (q ⟨0, by decide⟩).val :=
  dotMW.rhsIdx_val_of_single rfl i q
theorem dotMW_rhs1 (i : SM.Idx) (q : dotMW.contr.Idx) : (dotMW.rhsIdx i q 1).val = (i 1).val := by
  unfold DotDims.rhsIdx
  rw [dif_neg (show ¬(1 : Fin SW.rank) ∈ dotMW.rhsBatch by decide), dif_pos (show (1 : Fin SW.rank) ∈ dotMW.rhsNonContracting by decide)]
  rfl

/-- The contraction's sum at (b, d), over the contraction index k: A (b, k) * W (k, d). -/
theorem dotMW_sum (l : SM.Idx → EReal) (r : SW.Idx → EReal) (b : Fin 8192) (d : Fin 64) :
    ∑ q : dotMW.contr.Idx, l (dotMW.lhsIdx (ix2 b d) q) * r (dotMW.rhsIdx (ix2 b d) q)
      = ∑ k : Fin 64, l (ix2 b k) * r (ix2 k d) := by
  rw [← Equiv.sum_comp (contrEquiv1 dotMW 64 rfl rfl).symm]
  refine Finset.sum_congr rfl fun k _ => ?_
  have hk := contrEquiv1_symm_val dotMW 64 rfl rfl k
  have el : dotMW.lhsIdx (ix2 b d) ((contrEquiv1 dotMW 64 rfl rfl).symm k) = ix2 b k := funext fun a => Fin.ext (by
    match a with
    | ⟨0, _⟩ => exact dotMW_lhs0 _ _
    | ⟨1, _⟩ => exact (dotMW_lhs1 _ _).trans hk)
  have er : dotMW.rhsIdx (ix2 b d) ((contrEquiv1 dotMW 64 rfl rfl).symm k) = ix2 k d := funext fun a => Fin.ext (by
    match a with
    | ⟨0, _⟩ => exact (dotMW_rhs0 _ _).trans hk
    | ⟨1, _⟩ => exact dotMW_rhs1 _ _)
  rw [el, er]

/-- The kernel's product into a zero accumulator, at (b, d). -/
theorem matmul_row {φ₁ φ₂ : FTy} (D : DotDims SM SW SM) (hD : D = dotMW) (l : FVec Ideal SM φ₁) (r : FVec Ideal SW φ₂)
    (b : Fin 8192) (d : Fin 64) :
    matmul (F := Ideal) D none l r (constant SM .f32 0x00000000#32) (ix2 b d) = ∑ k : Fin 64, l (ix2 b k) * r (ix2 k d) := by
  subst hD
  exact (Ideal.matmul_constant_zero_apply dotMW none l r (ix2 b d)).trans (dotMW_sum l r b d)

/-- The host's product, at (b, d). -/
theorem dotGeneral_row {φ₁ φ₂ : FTy} (D : DotDims SM SW SM) (hD : D = dotMW) (l : FVec Ideal SM φ₁) (r : FVec Ideal SW φ₂)
    (b : Fin 8192) (d : Fin 64) :
    Host.dotGeneral (F := Ideal) D none l r (ix2 b d) = ∑ k : Fin 64, l (ix2 b k) * r (ix2 k d) := by
  subst hD
  simp only [Host.dotGeneral]
  exact (Ideal.dotGeneral_apply dotMW none _ l r (ix2 b d)).trans (dotMW_sum l r b d)

end Cert.Proof.Tail

end
-- ==== Proof.Tail.Cols.lean ====
/-
  The keepdims columns of the stage, and the stage's value at one row.

  A row statistic (the row's maximum, the row's sum of exponentials) is viewed as a column [8192, 1] and used against the
  8192 x 64 array again: every entry (b, d) reads the statistic of row b. The kernel spells this as a shape cast and a
  vector broadcast, the host as two broadcasts along named axes. The stage's result at row b is then a function of the
  two projected rows p = P(b, .) and q = Q(b, .) alone: the sum over d of softmax(p)(d) * logistic(q(d)), the softmax
  taken with the row's maximum (joined with minus infinity) subtracted.
-/
import Idealize.ShloMosaic.PureOps.Ideal.Laws
import Idealize.ShloMosaic.Lib.Pipeline.Value
import Idealize.ShloMosaic.Lib.ValueIdx
import proofs.«104805_j50294067036541_2_alg».proof.Proof.LibKeepdims
import proofs.«104805_j50294067036541_2_alg».proof.Proof.Tail.Rows

noncomputable section

namespace Cert.Proof.Tail

open Idealize.ShloMosaic Idealize.ShloMosaic.ValueIdx

variable {α : Type}

/-- The kernel's column of a per-row vector, broadcast along the rows: entry (b, d) is the vector at b. -/
theorem keepdims_row (v : SV.Idx → α) (hc : SV.ShapeCasts SC) (hb : SC.Broadcasts SM) (b : Fin 8192) (d : Fin 64) :
    broadcastTo SM (shapeCast SC v hc) hb (ix2 b d) = v (ix1 b) :=
  (Cert.LibKeepdims.broadcastTo_a1_ab_apply _ hb b d).trans (Cert.LibKeepdims.shapeCast_a_a1_apply v hc b 0)

/-- The host's column of a per-row vector, broadcast along the rows: entry (b, d) is the vector at b. -/
theorem bcastCol_row (v : SV.Idx → α) (h1 : SV.BroadcastsInDim SC (![0] : Fin SV.rank → Fin SC.rank))
    (h2 : SC.BroadcastsInDim SM (![0, 1] : Fin SC.rank → Fin SM.rank)) (b : Fin 8192) (d : Fin 64) :
    broadcastInDim SM ![0, 1] h2 (broadcastInDim SC ![0] h1 v) (ix2 b d) = v (ix1 b) := by
  refine (broadcastInDim_apply _ h2 _ (ix2 b d) (ix2 b (0 : Fin 1)) fun a => ?_).trans ?_
  · match a with
    | ⟨0, _⟩ => show b.val = if (8192 : Nat) = 1 then 0 else b.val; rw [if_neg (by decide)]
    | ⟨1, _⟩ => show (0 : Nat) = if (1 : Nat) = 1 then 0 else d.val; rw [if_pos rfl]
  · exact broadcastInDim_apply _ h1 v (ix2 b (0 : Fin 1)) (ix1 b) fun a => by
      match a with
      | ⟨0, _⟩ => show b.val = if (8192 : Nat) = 1 then 0 else b.val; rw [if_neg (by decide)]

/-- The host's broadcast of a scalar reads the scalar everywhere. -/
theorem bcastScalar_apply {t : Shape} (c : S0.Idx → α) (h : S0.BroadcastsInDim t (![] : Fin S0.rank → Fin t.rank)) (j : t.Idx) :
    broadcastInDim t ![] h c j = c ix0 :=
  broadcastInDim_apply _ h c j ix0 fun a => a.elim0

/-- The pattern of 1.0 denotes the extended real 1. -/
theorem ofBits_one_f32 : Ideal.ofBits .f32 0x3F800000#32 = 1 := by
  simp [Ideal.ofBits, Ideal.ieee, -EReal.coe_mul]; norm_num

/-- The stage's value at one row, from the row's two projections p and q: with m the row's maximum of p joined with minus
    infinity and e d = exp (p d - m), the sum over d of (e d / sum of e) * logistic (q d). -/
def tailRow (p q : Fin 64 → EReal) : EReal :=
  ∑ d : Fin 64,
    Ideal.div
        (Ideal.exp (p d - max (Ideal.ofBits .f32 0xFF800000#32)
          ((Finset.univ : Finset (Fin 64)).fold max (Ideal.ofBits .f32 0xFF800000#32) p)))
        (∑ d' : Fin 64, Ideal.exp (p d' - max (Ideal.ofBits .f32 0xFF800000#32)
          ((Finset.univ : Finset (Fin 64)).fold max (Ideal.ofBits .f32 0xFF800000#32) p)))
      * Ideal.logistic (q d)

end Cert.Proof.Tail

end
-- ==== Proof.Tail.KernelRow.lean ====
/-
  The kernel's last region at one row.

  The region's stored value at (b, 0) is the stage's value at row b of the two projected rows: the chain below reads the
  kernel's spelling (casts to the same shape and format changes, which are identities on the extended reals; two products
  into a zero accumulator; a row maximum from minus infinity joined with minus infinity; the keepdims column subtracted;
  the exponential; its row sum; the quotient; the logistic; the product; its row sum; the column view) one operation at a
  time, each at the index (b, d).
-/
import proofs.«104805_j50294067036541_2_alg».proof.Proof.Gen.KernelIdeal.Skeleton
import proofs.«104805_j50294067036541_2_alg».proof.Proof.Tail.Dot
import proofs.«104805_j50294067036541_2_alg».proof.Proof.Tail.Cols

noncomputable section

namespace Cert.Proof.Tail

open Idealize.ShloMosaic Idealize.ShloMosaic.ValueIdx

/-- A projection as the kernel spells it: the operands cast to their own shapes and narrowed, both identities here. -/
theorem kProj (D : DotDims SM SW SM) (hD : D = dotMW) (A : FVec Ideal SM .f32) (W : FVec Ideal SW .f32)
    (hs : SM.ShapeCasts SM) (hs' : SW.ShapeCasts SW) (hlt : FTy.bits .bf16 < FTy.bits .f32) (b : Fin 8192) (d : Fin 64) :
    matmul (F := Ideal) D none (truncf .bf16 (shapeCast SM A hs) hlt) (truncf .bf16 (shapeCast SW W hs') hlt)
        (constant SM .f32 0x00000000#32) (ix2 b d)
      = ∑ k : Fin 64, A (ix2 b k) * W (ix2 k d) := by
  rw [shapeCast_self, shapeCast_self]
  exact matmul_row D hD _ _ b d

/-- The kernel's exponentials at (b, d): exp of the entry minus the row's maximum joined with minus infinity. -/
theorem kExp_apply (P : FVec Ideal SM .f32) (h : SM.Reduces [1] SV) (hφ : FKind.Formats .f32)
    (hmax : (0xFF800000#32 : BitVec 32) = FKind.maximumf.neutral .f32 hφ) (hc : SV.ShapeCasts SC) (hb : SC.Broadcasts SM)
    (b : Fin 8192) (d : Fin 64) (p : Fin 64 → EReal) (hp : ∀ d, P (ix2 b d) = p d) :
    exp (subf P (broadcastTo SM (shapeCast SC (maximumf (broadcast SV (Scalar.ofBits (F := Ideal) .f32 0xFF800000#32))
        (multiReduction (F := Ideal) .maximumf [1] SV P 0xFF800000#32 h hφ hmax)) hc) hb)) (ix2 b d)
      = Ideal.exp (p d - max (Ideal.ofBits .f32 0xFF800000#32)
          ((Finset.univ : Finset (Fin 64)).fold max (Ideal.ofBits .f32 0xFF800000#32) p)) := by
  have hm : broadcastTo SM (shapeCast SC (maximumf (broadcast SV (Scalar.ofBits (F := Ideal) .f32 0xFF800000#32))
        (multiReduction (F := Ideal) .maximumf [1] SV P 0xFF800000#32 h hφ hmax)) hc) hb (ix2 b d)
      = max (Ideal.ofBits .f32 0xFF800000#32) ((Finset.univ : Finset (Fin 64)).fold max (Ideal.ofBits .f32 0xFF800000#32) p) :=
    (keepdims_row _ hc hb b d).trans (congrArg (max (Ideal.ofBits .f32 0xFF800000#32))
      ((mredMax_row P _ h hφ hmax b).trans
        (congrArg (fun f => Finset.fold max (Ideal.ofBits .f32 0xFF800000#32) f (Finset.univ : Finset (Fin 64))) (funext hp))))
  show Ideal.exp (P (ix2 b d) - broadcastTo SM (shapeCast SC (maximumf (broadcast SV (Scalar.ofBits (F := Ideal) .f32 0xFF800000#32))
        (multiReduction (F := Ideal) .maximumf [1] SV P 0xFF800000#32 h hφ hmax)) hc) hb (ix2 b d)) = _
  rw [hm, hp d]

/-- The kernel's normalised, weighted row sum as a column, at (b, 0): from the exponentials E and the weights G. -/
theorem kTail (E G : FVec Ideal SM .f32) (h : SM.Reduces [1] SV) (hφ : FKind.Formats .f32)
    (hadd : (0x00000000#32 : BitVec 32) = FKind.add.neutral .f32 hφ) (hc : SV.ShapeCasts SC) (hb : SC.Broadcasts SM)
    (b : Fin 8192) (e g : Fin 64 → EReal) (he : ∀ d, E (ix2 b d) = e d) (hg : ∀ d, G (ix2 b d) = g d) :
    shapeCast SC (multiReduction (F := Ideal) .add [1] SV
        (mulf (divf E (broadcastTo SM (shapeCast SC (multiReduction (F := Ideal) .add [1] SV E 0x00000000#32 h hφ hadd) hc) hb)) G)
        0x00000000#32 h hφ hadd) hc (ix2 b (0 : Fin 1))
      = ∑ d : Fin 64, Ideal.div (e d) (∑ d' : Fin 64, e d') * g d := by
  refine (Cert.LibKeepdims.shapeCast_a_a1_apply _ hc b 0).trans ?_
  refine (mredAdd_row _ _ h hφ hadd b).trans ?_
  refine Finset.sum_congr rfl fun d _ => ?_
  have hs : broadcastTo SM (shapeCast SC (multiReduction (F := Ideal) .add [1] SV E 0x00000000#32 h hφ hadd) hc) hb (ix2 b d)
      = ∑ d' : Fin 64, e d' :=
    (keepdims_row _ hc hb b d).trans ((mredAdd_row E _ h hφ hadd b).trans (Finset.sum_congr rfl fun d' _ => he d'))
  show Ideal.div (E (ix2 b d))
      (broadcastTo SM (shapeCast SC (multiReduction (F := Ideal) .add [1] SV E 0x00000000#32 h hφ hadd) hc) hb (ix2 b d))
      * G (ix2 b d) = _
  rw [hs, he d, hg d]

/-- THE KERNEL'S SIDE: the stored value at (b, 0) is the stage's value at row b of the projections of rows b of U and I. -/
theorem kernel_row (U I : Vec Ideal Cert.KernelIdeal.S8192x64 .f32) (Wu Wi : Vec Ideal Cert.KernelIdeal.S64x64 .f32) (b : Fin 8192) :
    Cert.KernelIdeal.Gen.k3_pay1 (F := Ideal) U I Wu Wi (ix2 b (0 : Fin 1))
      = tailRow (fun d => ∑ k : Fin 64, U (ix2 b k) * Wu (ix2 k d)) (fun d => ∑ k : Fin 64, I (ix2 b k) * Wi (ix2 k d)) := by
  unfold Cert.KernelIdeal.Gen.k3_pay1
  exact kTail _ _ _ _ _ _ _ b _ _
    (fun d => kExp_apply _ _ _ _ _ _ b d _ fun d' => kProj _ rfl U Wu _ _ _ b d')
    (fun d => congrArg Ideal.logistic (kProj _ rfl I Wi _ _ _ b d))

end Cert.Proof.Tail

end
-- ==== Proof.Tail.RefRow.lean ====
/-
  The reference's last line at one row.

  The host line's value at row b is the stage's value at row b of the two projected rows: the chain below reads the
  host's spelling (two products; a row maximum from minus infinity joined with a broadcast minus infinity; the column
  broadcast along the rows and subtracted; the exponential; its row sum from zero; the quotient; the logistic spelt as
  1 / (1 + exp (-x)); the product; its row sum from zero) one operation at a time, each at the index (b, d).
-/
import proofs.«104805_j50294067036541_2_alg».proof.Proof.Spec
import proofs.«104805_j50294067036541_2_alg».proof.Proof.Tail.Dot
import proofs.«104805_j50294067036541_2_alg».proof.Proof.Tail.Cols

noncomputable section

namespace Cert.Proof.Tail

open Idealize.ShloMosaic Idealize.ShloMosaic.ValueIdx

/-- The host's exponentials at (b, d): exp of the entry minus the row's maximum joined with minus infinity. -/
theorem hExp_apply (P : FVec Ideal SM .f32) (h' : SM.ReducesTo [1] SV) (hu : 0 < S0.numel)
    (h0 : S0.BroadcastsInDim SV (![] : Fin S0.rank → Fin SV.rank))
    (h1 : SV.BroadcastsInDim SC (![0] : Fin SV.rank → Fin SC.rank)) (h2 : SC.BroadcastsInDim SM (![0, 1] : Fin SC.rank → Fin SM.rank))
    (b : Fin 8192) (d : Fin 64) (p : Fin 64 → EReal) (hp : ∀ d, P (ix2 b d) = p d) :
    Host.exp (subf P (broadcastInDim SM ![0, 1] h2 (broadcastInDim SC ![0] h1
        (maximumf (broadcastInDim SV ![] h0 (constant (F := Ideal) S0 .f32 0xFF800000#32))
          (Host.reduce FloatOps.maximumf P (constant (F := Ideal) S0 .f32 0xFF800000#32) h' hu))))) (ix2 b d)
      = Ideal.exp (p d - max (Ideal.ofBits .f32 0xFF800000#32)
          ((Finset.univ : Finset (Fin 64)).fold max (Ideal.ofBits .f32 0xFF800000#32) p)) := by
  have hm : broadcastInDim SM ![0, 1] h2 (broadcastInDim SC ![0] h1
        (maximumf (broadcastInDim SV ![] h0 (constant (F := Ideal) S0 .f32 0xFF800000#32))
          (Host.reduce FloatOps.maximumf P (constant (F := Ideal) S0 .f32 0xFF800000#32) h' hu))) (ix2 b d)
      = max (Ideal.ofBits .f32 0xFF800000#32) ((Finset.univ : Finset (Fin 64)).fold max (Ideal.ofBits .f32 0xFF800000#32) p) :=
    (bcastCol_row _ h1 h2 b d).trans (congrArg₂ max (bcastScalar_apply _ h0 (ix1 b))
      ((hostMax_row P _ h' hu b).trans
        (congrArg (fun f => Finset.fold max (Ideal.ofBits .f32 0xFF800000#32) f (Finset.univ : Finset (Fin 64))) (funext hp))))
  show Ideal.exp (P (ix2 b d) - broadcastInDim SM ![0, 1] h2 (broadcastInDim SC ![0] h1
        (maximumf (broadcastInDim SV ![] h0 (constant (F := Ideal) S0 .f32 0xFF800000#32))
          (Host.reduce FloatOps.maximumf P (constant (F := Ideal) S0 .f32 0xFF800000#32) h' hu))) (ix2 b d)) = _
  rw [hm, hp d]

/-- The host's logistic, spelt 1 / (1 + exp (-x)) with broadcast ones, at (b, d). -/
theorem hLogistic_apply (Q : FVec Ideal SM .f32) (h00 : S0.BroadcastsInDim SM (![] : Fin S0.rank → Fin SM.rank))
    (b : Fin 8192) (d : Fin 64) (q : EReal) (hq : Q (ix2 b d) = q) :
    Host.divf (broadcastInDim SM ![] h00 (constant (F := Ideal) S0 .f32 0x3F800000#32))
        (addf (broadcastInDim SM ![] h00 (constant (F := Ideal) S0 .f32 0x3F800000#32)) (Host.exp (Host.negf Q))) (ix2 b d)
      = Ideal.logistic q := by
  have h1 : broadcastInDim SM ![] h00 (constant (F := Ideal) S0 .f32 0x3F800000#32) (ix2 b d) = 1 :=
    (bcastScalar_apply _ h00 (ix2 b d)).trans ofBits_one_f32
  show Ideal.div (broadcastInDim SM ![] h00 (constant (F := Ideal) S0 .f32 0x3F800000#32) (ix2 b d))
      (broadcastInDim SM ![] h00 (constant (F := Ideal) S0 .f32 0x3F800000#32) (ix2 b d) + Ideal.exp (-(Q (ix2 b d)))) = _
  rw [h1, hq]
  rfl

/-- The host's normalised, weighted row sum at b: from the exponentials E and the weights G. -/
theorem hTail (E G : FVec Ideal SM .f32) (h' : SM.ReducesTo [1] SV) (hu : 0 < S0.numel)
    (h1 : SV.BroadcastsInDim SC (![0] : Fin SV.rank → Fin SC.rank)) (h2 : SC.BroadcastsInDim SM (![0, 1] : Fin SC.rank → Fin SM.rank))
    (b : Fin 8192) (e g : Fin 64 → EReal) (he : ∀ d, E (ix2 b d) = e d) (hg : ∀ d, G (ix2 b d) = g d) :
    Host.reduceAdd (mulf (Host.divf E (broadcastInDim SM ![0, 1] h2 (broadcastInDim SC ![0] h1
        (Host.reduceAdd E (constant (F := Ideal) S0 .f32 0x00000000#32) h' hu)))) G)
        (constant (F := Ideal) S0 .f32 0x00000000#32) h' hu (ix1 b)
      = ∑ d : Fin 64, Ideal.div (e d) (∑ d' : Fin 64, e d') * g d := by
  have hz : ∀ (x : FVec Ideal SM .f32), Host.reduceAdd x (constant (F := Ideal) S0 .f32 0x00000000#32) h' hu (ix1 b)
      = ∑ d : Fin 64, x (ix2 b d) := fun x => by
    refine (hostAdd_row x _ h' hu b).trans ?_
    show Ideal.ofBits .f32 0x00000000#32 + _ = _
    rw [Ideal.ofBits_zero_f32, zero_add]
  refine (hz _).trans ?_
  refine Finset.sum_congr rfl fun d _ => ?_
  have hs : broadcastInDim SM ![0, 1] h2 (broadcastInDim SC ![0] h1
        (Host.reduceAdd E (constant (F := Ideal) S0 .f32 0x00000000#32) h' hu)) (ix2 b d) = ∑ d' : Fin 64, e d' :=
    (bcastCol_row _ h1 h2 b d).trans ((hz E).trans (Finset.sum_congr rfl fun d' _ => he d'))
  show Ideal.div (E (ix2 b d)) (broadcastInDim SM ![0, 1] h2 (broadcastInDim SC ![0] h1
        (Host.reduceAdd E (constant (F := Ideal) S0 .f32 0x00000000#32) h' hu)) (ix2 b d)) * G (ix2 b d) = _
  rw [hs, he d, hg d]

/-- THE REFERENCE'S SIDE: the host line at row b is the stage's value at row b of the projections of rows b of U and I. -/
theorem ref_row (U I : Vec Ideal Cert.ReferenceIdeal.S8192x64 .f32) (Wu Wi : Vec Ideal Cert.ReferenceIdeal.S64x64 .f32) (b : Fin 8192) :
    Cert.Proof.Spec.R.tail (F := Ideal) U I Wu Wi (ix1 b)
      = tailRow (fun d => ∑ k : Fin 64, U (ix2 b k) * Wu (ix2 k d)) (fun d => ∑ k : Fin 64, I (ix2 b k) * Wi (ix2 k d)) := by
  unfold Cert.Proof.Spec.R.tail
  exact hTail _ _ _ _ _ _ b _ _
    (fun d => hExp_apply _ _ _ _ _ _ b d _ fun d' => dotGeneral_row _ rfl U Wu b d')
    (fun d => hLogistic_apply _ _ b d _ (dotGeneral_row _ rfl I Wi b d))

end Cert.Proof.Tail

end
-- ==== Proof.Tail.lean ====
/-
  The last stage of the two programs is one function.

  At row b the kernel's last region stores, and the reference's last host line computes, the same extended real: with
  P = U Wu and Q = I Wi (64-term sums), m the maximum of row b of P joined with minus infinity and e d = exp (P b d - m),
  the sum over d of (e d / sum of e) * (1 / (1 + exp (-(Q b d)))). No finiteness is needed: each side is read, one
  operation at a time, as this one expression of the projected rows.
-/
import proofs.«104805_j50294067036541_2_alg».proof.Proof.Tail.KernelRow
import proofs.«104805_j50294067036541_2_alg».proof.Proof.Tail.RefRow

noncomputable section

namespace Cert.Proof.Tail

open Idealize.ShloMosaic Idealize.ShloMosaic.ValueIdx

/-- The kernel's stored value at (b, 0) is the reference's last line at b, for every pair of 8192 x 64 operands and every
    pair of 64 x 64 weights. -/
theorem tail_eq (U I : Vec Ideal Cert.KernelIdeal.S8192x64 .f32) (Wu Wi : Vec Ideal Cert.KernelIdeal.S64x64 .f32) (b : Fin 8192) :
    Cert.KernelIdeal.Gen.k3_pay1 (F := Ideal) U I Wu Wi (ValueIdx.ix2 b (0 : Fin 1))
      = Cert.Proof.Spec.R.tail (F := Ideal) U I Wu Wi (ValueIdx.ix1 b) :=
  (kernel_row U I Wu Wi b).trans (ref_row U I Wu Wi b).symm

end Cert.Proof.Tail

end
-- ==== Proof.Result.lean ====
/-
  The two programs' results are one vector.

  At batch entry b the kernel program's result is the last region's column at (b, 0); the region's body and the
  reference's last line of host operations are the same function of the batch's rows and the transposed weight
  matrices, and those rows are the same rows of the same mean table in both programs.
-/
import proofs.«104805_j50294067036541_2_alg».proof.Proof.MeanEq
import proofs.«104805_j50294067036541_2_alg».proof.Proof.Tail
import proofs.«104805_j50294067036541_2_alg».proof.Proof.LibKeepdims

set_option maxRecDepth 16384

noncomputable section

namespace Cert.Proof.Result

open Cert.Proof
open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ) (c : Dev Cert.KernelIdeal.nD)

/-- The kernel program's result vector is the reference's result function of the same arguments. -/
theorem result_eq :
    shapeCast Cert.KernelIdeal.S8192 (Cert.KernelIdeal.Chain.lastCol m c) Cert.KernelIdeal.Gen.shapeCasts_S8192x1_S8192
      = Cert.ReferenceIdeal.Read.val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  funext i
  obtain ⟨b, rfl⟩ : ∃ b : Fin 8192, i = ix1 b := ⟨i 0, eq_ix1 i⟩
  rw [Cert.ReferenceIdeal.RefValue.result_eq, ← MeanEq.userRows_eq m c, ← MeanEq.itemRows_eq m c]
  refine (Cert.LibKeepdims.shapeCast_a1_a_apply _ _ b).trans ?_
  unfold Cert.KernelIdeal.Chain.lastCol
  exact Tail.tail_eq _ _ _ _ b

end Cert.Proof.Result

end
-- ==== Proof.lean ====
/-
  A LightGCN forward pass: three rounds of message passing over a bipartite graph, the mean of the four node tables,
  and a scored batch.

  The kernel program pads the 3,000,000 edges to 367 blocks of 8192, forms the messages weight × gathered row in a
  pipelined region per round, and scores the batch in a last region; the reference does everything with host operations
  over the edges as given. Read over the extended reals the two agree exactly: a padded edge has weight 0 and 0 · y = 0
  for every extended real y, so the padded messages add nothing to any row; the regions' products, the matrix products
  (the kernel's rounding of their operands to a shorter format is the identity on extended reals), the softmax, the
  logistic and the sums are the same operations on both sides. No finiteness of the inputs is used.

  The frames of the two kernel programs are the generated frame certificates; the reference's frame is its generated run
  with the result dropped; the ideal pass rewrote nothing, so `preserves` is trivial.
-/
import proofs.«104805_j50294067036541_2_alg».proof.Defs
import proofs.«104805_j50294067036541_2_alg».proof.Proof.Gen.Kernel
import proofs.«104805_j50294067036541_2_alg».proof.Proof.Gen.Kernel.Skeleton
import proofs.«104805_j50294067036541_2_alg».proof.Proof.Gen.Kernel.Launch
import proofs.«104805_j50294067036541_2_alg».proof.Proof.Gen.Kernel.Points
import proofs.«104805_j50294067036541_2_alg».proof.Proof.Gen.Kernel.Frame
import proofs.«104805_j50294067036541_2_alg».proof.Proof.Gen.KernelIdeal
import proofs.«104805_j50294067036541_2_alg».proof.Proof.Gen.KernelIdeal.Skeleton
import proofs.«104805_j50294067036541_2_alg».proof.Proof.Gen.KernelIdeal.Launch
import proofs.«104805_j50294067036541_2_alg».proof.Proof.Gen.KernelIdeal.Points
import proofs.«104805_j50294067036541_2_alg».proof.Proof.Gen.KernelIdeal.Frame
import proofs.«104805_j50294067036541_2_alg».proof.Proof.Gen.ReferenceIdeal
import proofs.«104805_j50294067036541_2_alg».proof.Proof.Gen.Pre_finite_inputs
import proofs.«104805_j50294067036541_2_alg».proof.Proof.Gen.ReferenceIdeal.Run
import proofs.«104805_j50294067036541_2_alg».proof.Proof.Gen.ReferenceIdeal.Read
import proofs.«104805_j50294067036541_2_alg».proof.Proof.KernelRun
import proofs.«104805_j50294067036541_2_alg».proof.Proof.Chain
import proofs.«104805_j50294067036541_2_alg».proof.Proof.Result
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the same scores: the kernel program's result is the last region's
    column with its unit axis dropped, the reference's is its last stage, and the two are one function of the
    arguments, on which the two memories agree. -/
theorem algebraic : Cert.algebraic_KernelIdeal_ReferenceIdeal := by
  intro m ρ m' ρ' _ hagree
  refine ⟨fun c => shapeCast Cert.KernelIdeal.S8192 (Cert.KernelIdeal.Chain.lastCol m c) Cert.KernelIdeal.Gen.shapeCasts_S8192x1_S8192, ?_, ?_⟩
  · exact (θ_run Cert.KernelIdeal.defs _ _).mono
      (fun r h c => ⟨(h c).1.trans (Cert.KernelIdeal.Chain.W15_v62 m ρ c), (h c).2⟩) (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v83_eq, h0, h1, h2, h3, h4, h5, h6, h7, h8]
    exact (Cert.Proof.Result.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
